-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S64x64 .f32) (main_arg10 : FVec F S64 .f32) (main_arg11 : FVec F S64x64 .f32) (main_arg12 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S_ : Shape := ⟨0, ![]⟩
abbrev S800000x1 : Shape := ⟨2, ![800000, 1]⟩
abbrev S800000x64 : Shape := ⟨2, ![800000, 64]⟩
abbrev S256x64 : Shape := ⟨2, ![256, 64]⟩
abbrev S50000x1 : Shape := ⟨2, ![50000, 1]⟩
abbrev S256 : Shape := ⟨1, ![256]⟩
abbrev S256x1 : Shape := ⟨2, ![256, 1]⟩

abbrev nBuf : Space → Nat
  | .hbm => 67
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S1x64, .f32⟩
  | .hbm, ⟨18, _⟩ => ⟨S50000x64, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S_, .f32⟩
  | .hbm, ⟨29, _⟩ => ⟨S50000x64, .f32⟩
  | .hbm, ⟨30, _⟩ => ⟨S800000x1, .i32⟩
  | .hbm, ⟨31, _⟩ => ⟨S50000x64, .f32⟩
  | .hbm, ⟨32, _⟩ => ⟨S1x64, .f32⟩
  | .hbm, ⟨33, _⟩ => ⟨S1x64, .f32⟩
  | .hbm, ⟨34, _⟩ => ⟨S50000x64, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x64, .f32⟩
  | .hbm, ⟨44, _⟩ => ⟨S_, .f32⟩
  | .hbm, ⟨45, _⟩ => ⟨S50000x64, .f32⟩
  | .hbm, ⟨46, _⟩ => ⟨S800000x1, .i32⟩
  | .hbm, ⟨47, _⟩ => ⟨S50000x64, .f32⟩
  | .hbm, ⟨48, _⟩ => ⟨S1x64, .f32⟩
  | .hbm, ⟨49, _⟩ => ⟨S1x64, .f32⟩
  | .hbm, ⟨50, _⟩ => ⟨S50000x64, .f32⟩
  | .hbm, ⟨51, _⟩ => ⟨S_, .f32⟩
  | .hbm, ⟨52, _⟩ => ⟨S256x64, .f32⟩
  | .hbm, ⟨53, _⟩ => ⟨S50000x1, .i32⟩
  | .hbm, ⟨54, _⟩ => ⟨S256x64, .f32⟩
  | .hbm, ⟨55, _⟩ => ⟨S_, .f32⟩
  | .hbm, ⟨56, _⟩ => ⟨S50000, .f32⟩
  | .hbm, ⟨57, _⟩ => ⟨S_, .f32⟩
  | .hbm, ⟨58, _⟩ => ⟨S256, .f32⟩
  | .hbm, ⟨59, _⟩ => ⟨S50000x1, .i32⟩
  | .hbm, ⟨60, _⟩ => ⟨S256, .f32⟩
  | .hbm, ⟨61, _⟩ => ⟨S_, .f32⟩
  | .hbm, ⟨62, _⟩ => ⟨S256, .f32⟩
  | .hbm, ⟨63, _⟩ => ⟨S256, .f32⟩
  | .hbm, ⟨64, _⟩ => ⟨S256x1, .f32⟩
  | .hbm, ⟨65, _⟩ => ⟨S256x64, .f32⟩
  | .hbm, ⟨66, _⟩ => ⟨S256x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_1 : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bcast_S_S256x64 : S_.BroadcastsInDim S256x64 (![] : Fin 0 → Fin S256x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  scatter_S256x64_S50000x1_S50000x64_1_0_0_1_wf : ScatterDims.WF S256x64 S50000x1 S50000x64 [1] [0] [0] 1
  scatter_S256_S50000x1_S50000_n_0_0_1_wf : ScatterDims.WF S256 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v18) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v31) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩
abbrev S256x64 : Shape := ⟨2, ![256, 64]⟩
abbrev S50000x1 : Shape := ⟨2, ![50000, 1]⟩
abbrev S256 : Shape := ⟨1, ![256]⟩
abbrev S256x1 : Shape := ⟨2, ![256, 1]⟩

abbrev nBuf : Space → Nat
  | .hbm => 96
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S50000x64, .f32⟩
  | .hbm, ⟨18, _⟩ => ⟨S1x64, .f32⟩
  | .hbm, ⟨19, _⟩ => ⟨S50000x64, .f32⟩
  | .hbm, ⟨20, _⟩ => ⟨S50000x64, .f32⟩
  | .hbm, ⟨21, _⟩ => ⟨S_, .f32⟩
  | .hbm, ⟨22, _⟩ => ⟨S50000x64, .f32⟩
  | .hbm, ⟨23, _⟩ => ⟨S50000x64, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x64, .f32⟩
  | .hbm, ⟨33, _⟩ => ⟨S_, .f32⟩
  | .hbm, ⟨34, _⟩ => ⟨S50000x64, .f32⟩
  | .hbm, ⟨35, _⟩ => ⟨S800000x1, .i32⟩
  | .hbm, ⟨36, _⟩ => ⟨S50000x64, .f32⟩
  | .hbm, ⟨37, _⟩ => ⟨S50000x64, .f32⟩
  | .hbm, ⟨38, _⟩ => ⟨S50000x64, .f32⟩
  | .hbm, ⟨39, _⟩ => ⟨S1x64, .f32⟩
  | .hbm, ⟨40, _⟩ => ⟨S50000x64, .f32⟩
  | .hbm, ⟨41, _⟩ => ⟨S50000x64, .f32⟩
  | .hbm, ⟨42, _⟩ => ⟨S_, .f32⟩
  | .hbm, ⟨43, _⟩ => ⟨S50000x64, .f32⟩
  | .hbm, ⟨44, _⟩ => ⟨S50000x64, .f32⟩
  | .hbm, ⟨45, _⟩ => ⟨S50000x64, .f32⟩
  | .hbm, ⟨46, _⟩ => ⟨S1x64, .f32⟩
  | .hbm, ⟨47, _⟩ => ⟨S50000x64, .f32⟩
  | .hbm, ⟨48, _⟩ => ⟨S50000x64, .f32⟩
  | .hbm, ⟨49, _⟩ => ⟨S_, .f32⟩
  | .hbm, ⟨50, _⟩ => ⟨S50000x64, .f32⟩
  | .hbm, ⟨51, _⟩ => ⟨S50000x64, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x64, .f32⟩
  | .hbm, ⟨61, _⟩ => ⟨S_, .f32⟩
  | .hbm, ⟨62, _⟩ => ⟨S50000x64, .f32⟩
  | .hbm, ⟨63, _⟩ => ⟨S800000x1, .i32⟩
  | .hbm, ⟨64, _⟩ => ⟨S50000x64, .f32⟩
  | .hbm, ⟨65, _⟩ => ⟨S50000x64, .f32⟩
  | .hbm, ⟨66, _⟩ => ⟨S50000x64, .f32⟩
  | .hbm, ⟨67, _⟩ => ⟨S1x64, .f32⟩
  | .hbm, ⟨68, _⟩ => ⟨S50000x64, .f32⟩
  | .hbm, ⟨69, _⟩ => ⟨S50000x64, .f32⟩
  | .hbm, ⟨70, _⟩ => ⟨S_, .f32⟩
  | .hbm, ⟨71, _⟩ => ⟨S50000x64, .f32⟩
  | .hbm, ⟨72, _⟩ => ⟨S50000x64, .f32⟩
  | .hbm, ⟨73, _⟩ => ⟨S50000x64, .f32⟩
  | .hbm, ⟨74, _⟩ => ⟨S1x64, .f32⟩
  | .hbm, ⟨75, _⟩ => ⟨S50000x64, .f32⟩
  | .hbm, ⟨76, _⟩ => ⟨S50000x64, .f32⟩
  | .hbm, ⟨77, _⟩ => ⟨S_, .f32⟩
  | .hbm, ⟨78, _⟩ => ⟨S50000x64, .f32⟩
  | .hbm, ⟨79, _⟩ => ⟨S50000x64, .f32⟩
  | .hbm, ⟨80, _⟩ => ⟨S_, .f32⟩
  | .hbm, ⟨81, _⟩ => ⟨S256x64, .f32⟩
  | .hbm, ⟨82, _⟩ => ⟨S50000x1, .i32⟩
  | .hbm, ⟨83, _⟩ => ⟨S256x64, .f32⟩
  | .hbm, ⟨84, _⟩ => ⟨S_, .f32⟩
  | .hbm, ⟨85, _⟩ => ⟨S50000, .f32⟩
  | .hbm, ⟨86, _⟩ => ⟨S_, .f32⟩
  | .hbm, ⟨87, _⟩ => ⟨S256, .f32⟩
  | .hbm, ⟨88, _⟩ => ⟨S50000x1, .i32⟩
  | .hbm, ⟨89, _⟩ => ⟨S256, .f32⟩
  | .hbm, ⟨90, _⟩ => ⟨S_, .f32⟩
  | .hbm, ⟨91, _⟩ => ⟨S256, .f32⟩
  | .hbm, ⟨92, _⟩ => ⟨S256, .f32⟩
  | .hbm, ⟨93, _⟩ => ⟨S256x1, .f32⟩
  | .hbm, ⟨94, _⟩ => ⟨S256x64, .f32⟩
  | .hbm, ⟨95, _⟩ => ⟨S256x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_cst : Ref sig .tc := ⟨.hbm, 21, rfl⟩
abbrev main_call0_v0 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call1_cst : Ref sig .tc := ⟨.hbm, 42, rfl⟩
abbrev main_call1_v0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call2_cst : Ref sig .tc := ⟨.hbm, 49, rfl⟩
abbrev main_call2_v0 : Ref sig .tc := ⟨.hbm, 50, rfl⟩
abbrev main_v29 : Ref sig .tc := ⟨.hbm, 51, rfl⟩
abbrev main_c_1 : Ref sig .tc := ⟨.hbm, 52, rfl⟩
abbrev main_v30 : Ref sig .tc := ⟨.hbm, 53, rfl⟩
abbrev main_v31 : Ref sig .tc := ⟨.hbm, 54, rfl⟩
abbrev main_c_2 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_3 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call3_cst : Ref sig .tc := ⟨.hbm, 70, rfl⟩
abbrev main_call3_v0 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_call4_cst : Ref sig .tc := ⟨.hbm, 77, rfl⟩
abbrev main_call4_v0 : Ref sig .tc := ⟨.hbm, 78, rfl⟩
abbrev main_v50 : Ref sig .tc := ⟨.hbm, 79, rfl⟩
abbrev main_cst_4 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_5 : Ref sig .tc := ⟨.hbm, 84, rfl⟩
abbrev main_v54 : Ref sig .tc := ⟨.hbm, 85, rfl⟩
abbrev main_cst_6 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_7 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S256x64 : S_.BroadcastsInDim S256x64 (![] : Fin 0 → Fin S256x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S256x64_S50000x1_S50000x64_1_0_0_1_wf : ScatterDims.WF S256x64 S50000x1 S50000x64 [1] [0] [0] 1
  scatter_S256_S50000x1_S50000_n_0_0_1_wf : ScatterDims.WF S256 S50000x1 S50000 [] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf

class Facts : Prop extends Facts₀ where

variable [Facts]
-- ==== Proof.KernelRun.lean ====
/-
  The idealized kernel's run with its result NAMED: every weakly fair execution of the program ends, nothing faulting,
  with the result buffer at the last boundary's contents of the fold through the program's seven segments (four
  stretches of host operations around three regions), and the argument arrays as launched.
-/
import proofs.«167774_j68470368632924_1_alg».proof.Proof.Gen.KernelIdeal.Frame

noncomputable section

namespace Cert.Gin.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer ends at the fold's last contents, the arguments as launched. The launch over the seven
    segments leaves every unscoped buffer at the last boundary's contents; the final state is read against it at the
    result buffer and at each argument, and an argument's contents there walk back to the launch memory. -/
theorem run : θ_run defs (onTc (τ := τ) (main (F := F))) ⟨m, fun _ => 0, ρ⟩ (fun r => ∀ c : Dev nD,
      r.2.mem ((c.tc : Thread nD τ).loc main_v43) = W7 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v43 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c)⟩)

end Cert.Gin.KernelRun

end
-- ==== Proof.LibRowOps.lean ====
/-
  Row-wise operations on matrices of extended reals, generic in the sizes, each with the forms it takes in a program:
  on the host (broadcast_in_dim, dot_general) and inside a vector unit's body (shape casts, vector.broadcast, the matrix
  unit's product into a zero accumulator).

    reluRow a b     entry (r, c) is max (a(r, c) + b(0, c)) 0
    scaleRows g n   entry (r, c) is g(r, c) · n(r, 0):        every row of g scaled by that row's entry of the column n
    addRow a b      entry (r, c) is a(r, c) + b(0, c):        the row b added to every row of a
    matProd x w     entry (r, c) is ∑ k, x(r, k) · w(k, c):   the matrix product

  A column [A] cast to [A, 1] is the same array as that column broadcast along a new unit axis (colCast_eq_bcast), and
  likewise a row [B] cast to [1, B] (rowCast_eq_bcast).
-/
import Idealize.ShloMosaic.Lib.Pipeline.Value
import Idealize.ShloMosaic.Lib.ValueIdx
import Idealize.ShloMosaic.Lib.ValueLayout
import Idealize.ShloMosaic.PureOps.Ideal.Laws

noncomputable section

namespace Cert.RowOps

open Idealize.ShloMosaic Idealize.ShloMosaic.ValueIdx

/-- The entry of column 0 in the row of `i`. -/
abbrev col0 {A B : ℕ} (i : (⟨2, ![A, B]⟩ : Shape).Idx) : (⟨2, ![A, 1]⟩ : Shape).Idx :=
  ix2 (⟨(i 0).val, idx2_lt0 i⟩ : Fin A) (0 : Fin 1)

/-- The entry of row 0 in the column of `i`. -/
abbrev row0 {A B : ℕ} (i : (⟨2, ![A, B]⟩ : Shape).Idx) : (⟨2, ![1, B]⟩ : Shape).Idx :=
  ix2 (0 : Fin 1) (⟨(i 1).val, idx2_lt1 i⟩ : Fin B)

/-- Every row of `g` scaled by that row's entry of the column `n`. -/
def scaleRows {A B : ℕ} (g : (⟨2, ![A, B]⟩ : Shape).Idx → EReal) (n : (⟨2, ![A, 1]⟩ : Shape).Idx → EReal) :
    (⟨2, ![A, B]⟩ : Shape).Idx → EReal := fun i => g i * n (col0 i)

/-- The row `b` added to every row of `a`. -/
def addRow {A B : ℕ} (a : (⟨2, ![A, B]⟩ : Shape).Idx → EReal) (b : (⟨2, ![1, B]⟩ : Shape).Idx → EReal) :
    (⟨2, ![A, B]⟩ : Shape).Idx → EReal := fun i => a i + b (row0 i)

/-- The row `b` added to every row of `a`, then every entry cut off below at zero. -/
def reluRow {A B : ℕ} (a : (⟨2, ![A, B]⟩ : Shape).Idx → EReal) (b : (⟨2, ![1, B]⟩ : Shape).Idx → EReal) :
    (⟨2, ![A, B]⟩ : Shape).Idx → EReal := fun i => max (addRow a b i) (Ideal.ofBits .f32 0x00000000#32)

/-- The matrix product. -/
def matProd {A K B : ℕ} (x : (⟨2, ![A, K]⟩ : Shape).Idx → EReal) (w : (⟨2, ![K, B]⟩ : Shape).Idx → EReal) :
    (⟨2, ![A, B]⟩ : Shape).Idx → EReal :=
  fun i => ∑ k : Fin K, x (ix2 (⟨(i 0).val, idx2_lt0 i⟩ : Fin A) k) * w (ix2 k (⟨(i 1).val, idx2_lt1 i⟩ : Fin B))

/-! ## On the host -/

/-- A column [A, 1] broadcast to [A, B] along its unit axis reads, at `i`, the column's entry in the row of `i`. -/
theorem bcastCol_apply {A B : ℕ} (h : (⟨2, ![A, 1]⟩ : Shape).BroadcastsInDim ⟨2, ![A, B]⟩ ![0, 1])
    (n : (⟨2, ![A, 1]⟩ : Shape).Idx → EReal) (i : (⟨2, ![A, B]⟩ : Shape).Idx) :
    broadcastInDim ⟨2, ![A, B]⟩ ![0, 1] h n i = n (col0 i) :=
  broadcastInDim_apply _ h n i (col0 i) (fun a => match a with
    | ⟨0, _⟩ => by
      show (i 0).val = if A = 1 then 0 else (i 0).val
      split
      · have := idx2_lt0 i; omega
      · rfl
    | ⟨1, _⟩ => by show 0 = if (1 : ℕ) = 1 then 0 else (i 1).val; rw [if_pos rfl])

/-- The host's product of `g` with the column `n` broadcast over the columns is `scaleRows g n`. -/
theorem mulf_bcastCol {A B : ℕ} (h : (⟨2, ![A, 1]⟩ : Shape).BroadcastsInDim ⟨2, ![A, B]⟩ ![0, 1])
    (g : FVec Ideal ⟨2, ![A, B]⟩ .f32) (n : FVec Ideal ⟨2, ![A, 1]⟩ .f32) :
    mulf g (broadcastInDim ⟨2, ![A, B]⟩ ![0, 1] h n) = scaleRows g n :=
  funext fun i => by
    show g i * broadcastInDim ⟨2, ![A, B]⟩ ![0, 1] h n i = g i * n (col0 i)
    rw [bcastCol_apply]

/-- A row [1, B] broadcast to [A, B] along its unit axis reads, at `i`, the row's entry in the column of `i`. -/
theorem bcastRow_apply {A B : ℕ} (h : (⟨2, ![1, B]⟩ : Shape).BroadcastsInDim ⟨2, ![A, B]⟩ ![0, 1])
    (b : (⟨2, ![1, B]⟩ : Shape).Idx → EReal) (i : (⟨2, ![A, B]⟩ : Shape).Idx) :
    broadcastInDim ⟨2, ![A, B]⟩ ![0, 1] h b i = b (row0 i) :=
  broadcastInDim_apply _ h b i (row0 i) (fun a => match a with
    | ⟨0, _⟩ => by show 0 = if (1 : ℕ) = 1 then 0 else (i 0).val; rw [if_pos rfl]
    | ⟨1, _⟩ => by
      show (i 1).val = if B = 1 then 0 else (i 1).val
      split
      · have := idx2_lt1 i; omega
      · rfl)

/-- The host's sum of `a` with the row `b` broadcast over the rows is `addRow a b`. -/
theorem addf_bcastRow {A B : ℕ} (h : (⟨2, ![1, B]⟩ : Shape).BroadcastsInDim ⟨2, ![A, B]⟩ ![0, 1])
    (a : FVec Ideal ⟨2, ![A, B]⟩ .f32) (b : FVec Ideal ⟨2, ![1, B]⟩ .f32) :
    addf a (broadcastInDim ⟨2, ![A, B]⟩ ![0, 1] h b) = addRow a b :=
  funext fun i => by
    show a i + broadcastInDim ⟨2, ![A, B]⟩ ![0, 1] h b i = a i + b (row0 i)
    rw [bcastRow_apply]

/-- The host's maximum of `addRow a b` with the zero constant broadcast to the whole shape is `reluRow a b`. -/
theorem maximumf_bcastZero {A B : ℕ} (h : (⟨0, ![]⟩ : Shape).BroadcastsInDim ⟨2, ![A, B]⟩ ![])
    (a : (⟨2, ![A, B]⟩ : Shape).Idx → EReal) (b : (⟨2, ![1, B]⟩ : Shape).Idx → EReal) :
    maximumf (F := Ideal) (s := ⟨2, ![A, B]⟩) (φ := .f32) (addRow a b)
      (broadcastInDim ⟨2, ![A, B]⟩ ![] h (constant (F := Ideal) ⟨0, ![]⟩ .f32 0x00000000#32)) = reluRow a b :=
  funext fun i => rfl

/-- A column [A] cast to [A, 1] is that column broadcast along a new trailing unit axis. -/
theorem colCast_eq_bcast {A : ℕ} {α : Type} (hc : (⟨1, ![A]⟩ : Shape).ShapeCasts ⟨2, ![A, 1]⟩)
    (hb : (⟨1, ![A]⟩ : Shape).BroadcastsInDim ⟨2, ![A, 1]⟩ ![0]) (v : (⟨1, ![A]⟩ : Shape).Idx → α) :
    shapeCast ⟨2, ![A, 1]⟩ v hc = broadcastInDim ⟨2, ![A, 1]⟩ ![0] hb v :=
  funext fun i => by
    have hi1 : (i 1).val = 0 := by have := idx2_lt1 i; omega
    rw [shapeCast_apply v hc i (ix1 (⟨(i 0).val, idx2_lt0 i⟩ : Fin A)) (by
          rw [Shape.rowMajor_val_two, Shape.rowMajor_val_one]
          show (i 0).val = (i 0).val * 1 + (i 1).val
          rw [hi1, Nat.mul_one, Nat.add_zero]),
      broadcastInDim_apply _ hb v i (ix1 (⟨(i 0).val, idx2_lt0 i⟩ : Fin A)) (fun a => match a with
        | ⟨0, _⟩ => by
          show (i 0).val = if A = 1 then 0 else (i 0).val
          split
          · have := idx2_lt0 i; omega
          · rfl)]

/-- A row [B] cast to [1, B] is that row broadcast along a new leading unit axis. -/
theorem rowCast_eq_bcast {B : ℕ} {α : Type} (hc : (⟨1, ![B]⟩ : Shape).ShapeCasts ⟨2, ![1, B]⟩)
    (hb : (⟨1, ![B]⟩ : Shape).BroadcastsInDim ⟨2, ![1, B]⟩ ![1]) (v : (⟨1, ![B]⟩ : Shape).Idx → α) :
    shapeCast ⟨2, ![1, B]⟩ v hc = broadcastInDim ⟨2, ![1, B]⟩ ![1] hb v :=
  funext fun i => by
    have hi0 : (i 0).val = 0 := by have := idx2_lt0 i; omega
    rw [shapeCast_apply v hc i (ix1 (⟨(i 1).val, idx2_lt1 i⟩ : Fin B)) (by
          rw [Shape.rowMajor_val_two, Shape.rowMajor_val_one]
          show (i 1).val = (i 0).val * B + (i 1).val
          rw [hi0, Nat.zero_mul, Nat.zero_add]),
      broadcastInDim_apply _ hb v i (ix1 (⟨(i 1).val, idx2_lt1 i⟩ : Fin B)) (fun a => match a with
        | ⟨0, _⟩ => by
          show (i 1).val = if B = 1 then 0 else (i 1).val
          split
          · have := idx2_lt1 i; omega
          · rfl)]

/-- The host's `dot_general` of an [A, K] by a [K, B] matrix, contracting the one shared axis, is the matrix product:
    for any dimension record whose index facts say the left index takes the output row and the contraction position and
    the right index the contraction position and the output column. -/
theorem dotGeneral_eq_matProd {A K B : ℕ}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (sched : HostSchedule)
    (L : FVec Ideal ⟨2, ![A, K]⟩ .f32) (R : FVec Ideal ⟨2, ![K, B]⟩ .f32) :
    FloatOps.dotGeneral d prec sched L R = matProd L R :=
  funext fun i => by
    rw [Ideal.dotGeneral_apply, ← Equiv.sum_comp (contrEquiv1 d K hr hs).symm]
    refine Finset.sum_congr rfl fun k _ => ?_
    have hk := contrEquiv1_symm_val d K hr hs k
    have el : d.lhsIdx i ((contrEquiv1 d K hr hs).symm k) = ix2 (⟨(i 0).val, idx2_lt0 i⟩ : Fin A) k :=
      funext fun a => Fin.ext (by
        match a with
        | ⟨0, _⟩ => exact hl0 _ _
        | ⟨1, _⟩ => exact (hl1 _ _).trans hk)
    have er : d.rhsIdx i ((contrEquiv1 d K hr hs).symm k) = ix2 k (⟨(i 1).val, idx2_lt1 i⟩ : Fin B) :=
      funext fun a => Fin.ext (by
        match a with
        | ⟨0, _⟩ => exact (hr0 _ _).trans hk
        | ⟨1, _⟩ => exact hr1 _ _)
    rw [el, er]

/-! ## Inside a vector unit's body -/

/-- The body's product of a block `x0` with a column block `x1` broadcast over the columns is `scaleRows x0 x1`. -/
theorem mulf_broadcastTo_col {A B : ℕ} (h : (⟨2, ![A, 1]⟩ : Shape).Broadcasts ⟨2, ![A, B]⟩)
    (x0 : FVec Ideal ⟨2, ![A, B]⟩ .f32) (x1 : FVec Ideal ⟨2, ![A, 1]⟩ .f32) :
    mulf x0 (broadcastTo ⟨2, ![A, B]⟩ x1 h) = scaleRows x0 x1 :=
  funext fun i => by
    show x0 i * broadcastTo ⟨2, ![A, B]⟩ x1 h i = x0 i * x1 (col0 i)
    refine congrArg (x0 i * ·) (broadcastTo_apply x1 h i (col0 i) fun a => ?_)
    match a with
    | ⟨0, _⟩ =>
      show (i 0).val = if A = 1 then 0 else (i 0).val
      split
      · have := idx2_lt0 i; omega
      · rfl
    | ⟨1, _⟩ => rfl

/-- The body's sum of a block `x0` with a row block `x1` broadcast over the rows is `addRow x0 x1`. -/
theorem addf_broadcastTo_row {A B : ℕ} (h : (⟨2, ![1, B]⟩ : Shape).Broadcasts ⟨2, ![A, B]⟩)
    (x0 : FVec Ideal ⟨2, ![A, B]⟩ .f32) (x1 : FVec Ideal ⟨2, ![1, B]⟩ .f32) :
    addf x0 (broadcastTo ⟨2, ![A, B]⟩ x1 h) = addRow x0 x1 :=
  funext fun i => by
    show x0 i + broadcastTo ⟨2, ![A, B]⟩ x1 h i = x0 i + x1 (row0 i)
    refine congrArg (x0 i + ·) (broadcastTo_apply x1 h i (row0 i) fun a => ?_)
    match a with
    | ⟨0, _⟩ => rfl
    | ⟨1, _⟩ =>
      show (i 1).val = if B = 1 then 0 else (i 1).val
      split
      · have := idx2_lt1 i; omega
      · rfl

/-- The body's maximum of `addRow x0 x1` with the zero splat is `reluRow x0 x1`. -/
theorem maximumf_splatZero {A B : ℕ} (x0 : (⟨2, ![A, B]⟩ : Shape).Idx → EReal) (x1 : (⟨2, ![1, B]⟩ : Shape).Idx → EReal) :
    maximumf (F := Ideal) (s := ⟨2, ![A, B]⟩) (φ := .f32) (addRow x0 x1)
      (broadcast ⟨2, ![A, B]⟩ (Scalar.ofBits (F := Ideal) .f32 0x00000000#32)) = reluRow x0 x1 :=
  funext fun i => rfl

/-- The matrix unit's product into a zero accumulator is the matrix product (the operands' change of float format is
    the identity on extended reals), under the same index facts as `dotGeneral_eq_matProd`. -/
theorem matmul_eq_matProd {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) :
    FloatOps.matmul d prec L R (constant ⟨2, ![A, B]⟩ .f32 0x00000000#32) = matProd (fun j => L j) (fun j => R j) :=
  funext fun i => by
    rw [Ideal.matmul_constant_zero_apply, ← Equiv.sum_comp (contrEquiv1 d K hr hs).symm]
    refine Finset.sum_congr rfl fun k _ => ?_
    have hk := contrEquiv1_symm_val d K hr hs k
    have el : d.lhsIdx i ((contrEquiv1 d K hr hs).symm k) = ix2 (⟨(i 0).val, idx2_lt0 i⟩ : Fin A) k :=
      funext fun a => Fin.ext (by
        match a with
        | ⟨0, _⟩ => exact hl0 _ _
        | ⟨1, _⟩ => exact (hl1 _ _).trans hk)
    have er : d.rhsIdx i ((contrEquiv1 d K hr hs).symm k) = ix2 k (⟨(i 1).val, idx2_lt1 i⟩ : Fin B) :=
      funext fun a => Fin.ext (by
        match a with
        | ⟨0, _⟩ => exact (hr0 _ _).trans hk
        | ⟨1, _⟩ => exact hr1 _ _)
    rw [el, er]

end Cert.RowOps

end
-- ==== Proof.LibRowBand.lean ====
/-
  Rows of a band against rows of the whole.

  A blocked evaluation hands a body a band of rows of a matrix. Every row operation of LibRowOps computes row r of
  its result from row r of its matrix operand alone (and from the common right factor or the common row), so when
  row p of a block is row r of the whole array (`RowEq`), the same holds of the results:

    matProd x w      against  matProd X w      (a common right factor w)
    x + y            against  X + Y            (entry by entry)
    addRow x b       against  addRow X b       (a common row b)
    reluRow x b      against  reluRow X b

  Also: a sum of three entries taken in the order (m + b) + n is the sum (m + n) + b, entry by entry; addition of
  extended reals is commutative and associative, infinities included.
-/
import proofs.«167774_j68470368632924_1_alg».proof.Proof.LibRowOps

noncomputable section

namespace Cert.RowBand

open Idealize.ShloMosaic Idealize.ShloMosaic.ValueIdx Cert.RowOps

/-- Row `p` of the block `x` is row `r` of the array `X`. -/
def RowEq {a N K : ℕ} (x : (⟨2, ![a, K]⟩ : Shape).Idx → EReal) (X : (⟨2, ![N, K]⟩ : Shape).Idx → EReal)
    (p : Fin a) (r : Fin N) : Prop :=
  ∀ k : Fin K, x (ix2 p k) = X (ix2 r k)

/-- The matrix product with a common right factor: row r of the product is ∑ k, (row r)(k) · w(k, ·). -/
theorem RowEq.matProd {a N K B : ℕ} {x : (⟨2, ![a, K]⟩ : Shape).Idx → EReal} {X : (⟨2, ![N, K]⟩ : Shape).Idx → EReal}
    {p : Fin a} {r : Fin N} (h : RowEq x X p r) (w : (⟨2, ![K, B]⟩ : Shape).Idx → EReal) :
    RowEq (Cert.RowOps.matProd x w) (Cert.RowOps.matProd X w) p r := fun c => by
  show ∑ k : Fin K, x (ix2 p k) * w (ix2 k c) = ∑ k : Fin K, X (ix2 r k) * w (ix2 k c)
  exact Finset.sum_congr rfl fun k _ => by rw [h k]

/-- Entry-by-entry sums. -/
theorem RowEq.add {a N K : ℕ} {x y : (⟨2, ![a, K]⟩ : Shape).Idx → EReal} {X Y : (⟨2, ![N, K]⟩ : Shape).Idx → EReal}
    {p : Fin a} {r : Fin N} (hx : RowEq x X p r) (hy : RowEq y Y p r) :
    RowEq (fun i => x i + y i) (fun i => X i + Y i) p r := fun k => by
  show x (ix2 p k) + y (ix2 p k) = X (ix2 r k) + Y (ix2 r k)
  rw [hx k, hy k]

/-- A common row added to every row. -/
theorem RowEq.addRow {a N K : ℕ} {x : (⟨2, ![a, K]⟩ : Shape).Idx → EReal} {X : (⟨2, ![N, K]⟩ : Shape).Idx → EReal}
    {p : Fin a} {r : Fin N} (h : RowEq x X p r) (b : (⟨2, ![1, K]⟩ : Shape).Idx → EReal) :
    RowEq (Cert.RowOps.addRow x b) (Cert.RowOps.addRow X b) p r := fun k => by
  show x (ix2 p k) + b (ix2 (0 : Fin 1) k) = X (ix2 r k) + b (ix2 (0 : Fin 1) k)
  rw [h k]

/-- A common row added to every row, then cut off below at zero. -/
theorem RowEq.reluRow {a N K : ℕ} {x : (⟨2, ![a, K]⟩ : Shape).Idx → EReal} {X : (⟨2, ![N, K]⟩ : Shape).Idx → EReal}
    {p : Fin a} {r : Fin N} (h : RowEq x X p r) (b : (⟨2, ![1, K]⟩ : Shape).Idx → EReal) :
    RowEq (Cert.RowOps.reluRow x b) (Cert.RowOps.reluRow X b) p r := fun k => by
  show max (Cert.RowOps.addRow x b (ix2 p k)) _ = max (Cert.RowOps.addRow X b (ix2 r k)) _
  rw [RowEq.addRow h b k]

/-- (m + b) + n = (m + n) + b at every entry, with the row b read in the entry's column. -/
theorem addRow_add_comm {A B : ℕ} (m n : (⟨2, ![A, B]⟩ : Shape).Idx → EReal) (b : (⟨2, ![1, B]⟩ : Shape).Idx → EReal) :
    (fun i => addRow m b i + n i) = addRow (fun i => m i + n i) b :=
  funext fun i => by
    show m i + b (row0 i) + n i = m i + n i + b (row0 i)
    exact add_right_comm _ _ _

end Cert.RowBand

end
-- ==== Proof.Layers.lean ====
/-
  The two dense building blocks of the encoder, on matrices of extended reals, generic in the sizes.

    dense X W b            entry (r, c) is max (∑ k, X(r, k) · W(k, c) + b(0, c)) 0
    mlp H G W1 b1 W2 b2    dense (dense (H + G) W1 b1) W2 b2

  Each computes row r of its result from row r of its matrix operands alone, the weights and the bias rows being common to
  all rows. So when row p of a block is row r of a whole array, row p of the block's result is row r of the whole array's
  result: a tiling of the node axis does not change any entry.
-/
import proofs.«167774_j68470368632924_1_alg».proof.Proof.LibRowOps
import proofs.«167774_j68470368632924_1_alg».proof.Proof.LibRowBand

noncomputable section

namespace Cert.Gin

open Idealize.ShloMosaic Idealize.ShloMosaic.ValueIdx Cert.RowOps Cert.RowBand

/-- One dense layer with a rectifier: max (X · W + b) 0, the bias row b added to every row. -/
def dense {A K B : ℕ} (X : (⟨2, ![A, K]⟩ : Shape).Idx → EReal) (W : (⟨2, ![K, B]⟩ : Shape).Idx → EReal)
    (b : (⟨2, ![1, B]⟩ : Shape).Idx → EReal) : (⟨2, ![A, B]⟩ : Shape).Idx → EReal :=
  reluRow (matProd X W) b

/-- The combine step and the two-layer perceptron of one message-passing layer: the node features H and the aggregated
    neighbour features G are added entry by entry and pass through two dense layers. -/
def mlp {A K : ℕ} (H G : (⟨2, ![A, K]⟩ : Shape).Idx → EReal) (W1 : (⟨2, ![K, K]⟩ : Shape).Idx → EReal)
    (b1 : (⟨2, ![1, K]⟩ : Shape).Idx → EReal) (W2 : (⟨2, ![K, K]⟩ : Shape).Idx → EReal)
    (b2 : (⟨2, ![1, K]⟩ : Shape).Idx → EReal) : (⟨2, ![A, K]⟩ : Shape).Idx → EReal :=
  dense (dense (fun i => H i + G i) W1 b1) W2 b2

/-- Row p of a block's dense layer is row r of the whole array's, when row p of the block is row r of the array. -/
theorem RowEq.dense {a N K B : ℕ} {x : (⟨2, ![a, K]⟩ : Shape).Idx → EReal} {X : (⟨2, ![N, K]⟩ : Shape).Idx → EReal}
    {p : Fin a} {r : Fin N} (h : RowEq x X p r) (W : (⟨2, ![K, B]⟩ : Shape).Idx → EReal)
    (b : (⟨2, ![1, B]⟩ : Shape).Idx → EReal) : RowEq (Cert.Gin.dense x W b) (Cert.Gin.dense X W b) p r :=
  RowEq.reluRow (RowEq.matProd h W) b

/-- The same for the combine step followed by the two dense layers. -/
theorem RowEq.mlp {a N K : ℕ} {h g : (⟨2, ![a, K]⟩ : Shape).Idx → EReal} {H G : (⟨2, ![N, K]⟩ : Shape).Idx → EReal}
    {p : Fin a} {r : Fin N} (hh : RowEq h H p r) (hg : RowEq g G p r) (W1 : (⟨2, ![K, K]⟩ : Shape).Idx → EReal)
    (b1 : (⟨2, ![1, K]⟩ : Shape).Idx → EReal) (W2 : (⟨2, ![K, K]⟩ : Shape).Idx → EReal)
    (b2 : (⟨2, ![1, K]⟩ : Shape).Idx → EReal) :
    RowEq (Cert.Gin.mlp h g W1 b1 W2 b2) (Cert.Gin.mlp H G W1 b1 W2 b2) p r :=
  RowEq.dense (RowEq.dense (RowEq.add hh hg) W1 b1) W2 b2

end Cert.Gin

end
-- ==== Proof.Body.lean ====
/-
  The three kernel bodies on extended reals, each as ONE row operation of its loaded blocks.

  The projection body loads a [5000, 128] block of x, the weights and the bias row, and stores
  max (block · Wp + bp) 0: the dense layer of the block. Each perceptron body loads a [5000, 64] block of the node
  features and of the neighbour sums, two weight matrices and two bias rows, and stores the two-layer perceptron of the
  blocks' sum. The roundings to bf16 on the way into the matrix unit are the identity on extended reals, and the matrix
  unit's product into a zero accumulator is the matrix product.
-/
import proofs.«167774_j68470368632924_1_alg».proof.Proof.Gen.KernelIdeal.Skeleton
import proofs.«167774_j68470368632924_1_alg».proof.Proof.Layers

noncomputable section

namespace Cert.Gin.Body

open Cert.KernelIdeal Cert.KernelIdeal.Gen Idealize.ShloMosaic Idealize.ShloMosaic.TcCoe Idealize.ShloMosaic.ValueIdx
open Cert.RowOps Cert.RowBand Cert.Gin

/-- The left index of the proj product takes the output's row. -/
theorem proj_lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl

/-- The left index of the proj product takes the contraction position as its column. -/
theorem proj_lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q

/-- The right index of the proj product takes the contraction position as its row. -/
theorem proj_rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q

/-- The right index of the proj product takes the output's column. -/
theorem proj_rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The left index of the perc product takes the output's row. -/
theorem perc_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl

/-- The left index of the perc product takes the contraction position as its column. -/
theorem perc_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q

/-- The right index of the perc product takes the contraction position as its row. -/
theorem perc_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q

/-- The right index of the perc product takes the output's column. -/
theorem perc_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The projection product into a zero accumulator is the matrix product of its operands. -/
theorem proj_matmul {φ₁ φ₂ : FTy} (L : FVec Ideal S5000x128 φ₁) (R : FVec Ideal S128x64 φ₂) :
    matmul dot_S5000x128_S128x64_S5000x64_1_0_0_1_n_n none L R (constant (F := Ideal) S5000x64 .f32 0x00000000#32)
      = matProd (A := 5000) (K := 128) (B := 64) (fun j => L j) (fun j => R j) :=
  matmul_eq_matProd (A := 5000) (K := 128) (B := 64) dot_S5000x128_S128x64_S5000x64_1_0_0_1_n_n rfl rfl proj_lhs_0 proj_lhs_1 proj_rhs_0 proj_rhs_1 none L R

/-- A perceptron product into a zero accumulator is the matrix product of its operands. -/
theorem perc_matmul {φ₁ φ₂ : FTy} (L : FVec Ideal S5000x64 φ₁) (R : FVec Ideal S64x64 φ₂) :
    matmul dot_S5000x64_S64x64_S5000x64_1_0_0_1_n_n none L R (constant (F := Ideal) S5000x64 .f32 0x00000000#32)
      = matProd (A := 5000) (K := 64) (B := 64) (fun j => L j) (fun j => R j) :=
  matmul_eq_matProd (A := 5000) (K := 64) (B := 64) dot_S5000x64_S64x64_S5000x64_1_0_0_1_n_n rfl rfl perc_lhs_0 perc_lhs_1 perc_rhs_0 perc_rhs_1 none L R

/-- The projection body's stored value is the dense layer of its loaded blocks. -/
theorem pay0_eq (x0 : Vec Ideal S5000x128 .f32) (x1 : Vec Ideal S128x64 .f32) (x2 : Vec Ideal S1x64 .f32) :
    k0_pay1 (F := Ideal) x0 x1 x2 = dense (A := 5000) (K := 128) (B := 64) x0 x1 x2 := by
  unfold k0_pay1
  dsimp only
  rw [proj_matmul, shapeCast_self]
  refine (congrArg (fun a => maximumf a _) (addf_broadcastTo_row (A := 5000) (B := 64) _ _ _)).trans ?_
  exact maximumf_splatZero _ _

/-- One dense layer as a perceptron body computes it: the operands rounded to bf16 (the identity on extended reals), the
    matrix unit's product into a zero accumulator, the bias row added to every row, the maximum with the zero splat. -/
theorem perc_layer (X : FVec Ideal S5000x64 .f32) (W : Vec Ideal S64x64 .f32) (b : Vec Ideal S1x64 .f32) :
    maximumf
        (addf
          (matmul dot_S5000x64_S64x64_S5000x64_1_0_0_1_n_n none (truncf .bf16 X bitsLt_bf16_f32) (truncf .bf16 W bitsLt_bf16_f32)
            (constant (F := Ideal) S5000x64 .f32 0x00000000#32))
          (broadcastTo S5000x64 (shapeCast S1x64 b shapeCasts_S1x64_S1x64) broadcasts_S1x64_S5000x64))
        (broadcast S5000x64 (Scalar.ofBits (F := Ideal) .f32 0x00000000#32))
      = dense (A := 5000) (K := 64) (B := 64) X W b := by
  rw [perc_matmul, shapeCast_self]
  refine (congrArg (fun a => maximumf a _) (addf_broadcastTo_row (A := 5000) (B := 64) _ _ _)).trans ?_
  exact maximumf_splatZero _ _

/-- The first perceptron body's stored value is the two-layer perceptron of its loaded blocks. -/
theorem pay1_eq (x0 x1 : Vec Ideal S5000x64 .f32) (x2 : Vec Ideal S64x64 .f32) (x3 : Vec Ideal S1x64 .f32)
    (x4 : Vec Ideal S64x64 .f32) (x5 : Vec Ideal S1x64 .f32) :
    k1_pay1 (F := Ideal) x0 x1 x2 x3 x4 x5 = mlp (A := 5000) (K := 64) x0 x1 x2 x3 x4 x5 := by
  unfold k1_pay1 mlp
  dsimp only
  refine (perc_layer _ x4 x5).trans ?_
  refine congrArg (fun a => dense (A := 5000) (K := 64) (B := 64) a x4 x5) ?_
  refine (perc_layer _ x2 x3).trans ?_
  refine congrArg (fun a => dense (A := 5000) (K := 64) (B := 64) a x2 x3) ?_
  rw [shapeCast_self, shapeCast_self]
  rfl

/-- The second perceptron body's stored value is the two-layer perceptron of its loaded blocks. -/
theorem pay2_eq (x0 x1 : Vec Ideal S5000x64 .f32) (x2 : Vec Ideal S64x64 .f32) (x3 : Vec Ideal S1x64 .f32)
    (x4 : Vec Ideal S64x64 .f32) (x5 : Vec Ideal S1x64 .f32) :
    k2_pay1 (F := Ideal) x0 x1 x2 x3 x4 x5 = mlp (A := 5000) (K := 64) x0 x1 x2 x3 x4 x5 := by
  unfold k2_pay1 mlp
  dsimp only
  refine (perc_layer _ x4 x5).trans ?_
  refine congrArg (fun a => dense (A := 5000) (K := 64) (B := 64) a x4 x5) ?_
  refine (perc_layer _ x2 x3).trans ?_
  refine congrArg (fun a => dense (A := 5000) (K := 64) (B := 64) a x2 x3) ?_
  rw [shapeCast_self, shapeCast_self]
  rfl

end Cert.Gin.Body

end
-- ==== Proof.Region0.lean ====
/-
  Region 0, the input projection, over its ten grid points: point t loads rows 5000·t … 5000·t + 4999 of x with the whole
  weight matrix and bias row, and writes back the same rows of the result. Row p of point t's block is row 5000·t + p of
  the dense layer of the WHOLE arrays (a dense layer computes a row from that row alone), and the ten blocks tile the
  50000 rows: the output array ends holding the dense layer of the arrays the region finds.
-/
import proofs.«167774_j68470368632924_1_alg».proof.Proof.Gen.KernelIdeal.Frame
import proofs.«167774_j68470368632924_1_alg».proof.Proof.Body
import Idealize.ShloMosaic.Lib.Pipeline.Value

noncomputable section

namespace Cert.Gin.Region

open Cert.KernelIdeal Cert.KernelIdeal.Gen Idealize.ShloMosaic Idealize.ShloMosaic.TcCoe Idealize.SL.Sem
open Idealize.ShloMosaic.ValueIdx
open Idealize.ShloMosaic.Pipeline (Dat)
open Cert.RowOps Cert.RowBand Cert.Gin

variable (V : (c : Dev nD) → (b : Ref sig .tc) → Buf (Elt Ideal) ((c : Thread nD τ).loc b))

/-! Facts about the input projection's region: the blocks each point reads and writes, and the tiling of the rows. -/
namespace Proj

/-- The zero offsets of a whole-buffer access. -/
theorem zero_offsets : (![0, 0] : Fin 2 → Nat) = fun _ => 0 := funext fun a => by fin_cases a <;> rfl

/-- The block indices of the four windows at point t: the x rows and the result rows move with t along the node
    axis, the weight matrix and the bias row stay at block (0, 0). -/
theorem block_indices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's x block is row 5000·t + p of x. -/
theorem x_block_row (c : Dev nD) (t : Fin cfg0.N) (p : Fin 5000) (r : Fin 50000) (hr : r.val = 5000 * t.val + p.val) :
    RowEq (a := 5000) (N := 50000) (K := 128) (iblk0 V c 0 t) (V c main_arg0) p r := fun k => by
  obtain ⟨e0, e1, -⟩ := block_indices0 t
  show V c main_arg0 (((cfg0.win 0).blk t).view.emb (ix2 p k)) = V c main_arg0 (ix2 r k)
  refine congrArg _ ?_
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

/-- The weight window's block is the whole weight matrix at every point. -/
theorem w_block (c : Dev nD) (t : Fin cfg0.N) :
    (iblk0 V c 1 t : (⟨2, ![128, 64]⟩ : Shape).Idx → EReal) = V c main_arg3 := by
  obtain ⟨-, -, e2, e3, -⟩ := block_indices0 t
  funext y
  show V c main_arg3 (((cfg0.win 1).blk t).view.emb y) = V c main_arg3 y
  refine congrArg _ ?_
  funext a; apply Fin.ext
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- The bias window's block is the whole bias row at every point. -/
theorem b_block (c : Dev nD) (t : Fin cfg0.N) :
    (iblk0 V c 2 t : (⟨2, ![1, 64]⟩ : Shape).Idx → EReal) = V c main_v4 := by
  obtain ⟨-, -, -, -, e4, e5, -⟩ := block_indices0 t
  funext y
  show V c main_v4 (((cfg0.win 2).blk t).view.emb y) = V c main_v4 y
  refine congrArg _ ?_
  funext a; apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- WHAT POINT t WRITES BACK is block t of the dense layer of the whole arrays as the region finds them. -/
theorem flushed_eq (c : Dev nD) (t : Fin cfg0.N) :
    (dat0 (F := Ideal) V c).flushed 3 t
      = ((cfg0.win 3).blk t).view.read (Elt Ideal)
          (dense (A := 50000) (K := 128) (B := 64) (V c main_arg0) (V c main_arg3) (V c main_v4)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x64) zero_offsets,
    View.ld_unit_zero (S := S1x64) zero_offsets]
  rw [Cert.Gin.Body.pay0_eq]
  obtain ⟨-, -, -, -, -, -, e6, e7⟩ := block_indices0 t
  have hN : cfg0.N = 10 := N_0
  have ht := t.isLt
  funext j
  obtain ⟨p, q, rfl⟩ : ∃ (p : Fin 5000) (q : Fin 64), j = ix2 p q := ⟨j 0, j 1, eq_ix2 j⟩
  have hp := p.isLt
  have hemb : ((cfg0.win 3).blk t).view.emb (ix2 p q) = ix2 (⟨5000 * t.val + p.val, by omega⟩ : Fin 50000) q := by
    funext a; apply Fin.ext
    match a with
    | ⟨0, _⟩ => show win0_3.index t (0 : Fin 2) * 5000 + 1 * p.val = 5000 * t.val + p.val; omega
    | ⟨1, _⟩ => show win0_3.index t (1 : Fin 2) * 64 + 1 * q.val = q.val; omega
  show dense (A := 5000) (K := 128) (B := 64) (iblk0 V c 0 t) (iblk0 V c 1 t) (iblk0 V c 2 t) (ix2 p q)
    = dense (A := 50000) (K := 128) (B := 64) (V c main_arg0) (V c main_arg3) (V c main_v4)
        (((cfg0.win 3).blk t).view.emb (ix2 p q))
  rw [hemb, w_block V c t, b_block V c t]
  exact Cert.Gin.RowEq.dense (x_block_row V c t p _ rfl) (V c main_arg3) (V c main_v4) q

/-- An index of the result array is in point t's block iff each coordinate is in the block's range on its axis. -/
theorem mem_block (t : Fin cfg0.N) (i : S50000x64.Idx) :
    i ∈ ((cfg0.win 3).blk t).view.set
      ↔ ∀ a : Fin 2, win0_3.index t a * S5000x64.size a ≤ (i a).val
          ∧ (i a).val < win0_3.index t a * S5000x64.size a + S5000x64.size a := by
  show i ∈ ((View.whole main_v5).slice (win0_3.rect t)).set ↔ _
  rw [View.set_slice_whole, Rect.mem_set_unit]
  exact Iff.rfl

/-- The ten blocks of 5000 rows tile the 50000 rows: row r is in the block of point r / 5000. -/
theorem cover (i : S50000x64.Idx) :
    ∃ t : Fin cfg0.N, (cfg0.win 3).flush t = true ∧ i ∈ ((cfg0.win 3).blk t).view.set := by
  have hN : cfg0.N = 10 := N_0
  have hi0 : (i 0).val < 50000 := (i 0).isLt
  have hi1 : (i 1).val < 64 := (i 1).isLt
  let t : Fin cfg0.N := ⟨(i 0).val / 5000, by omega⟩
  obtain ⟨-, -, -, -, -, -, e6, e7⟩ := block_indices0 t
  have e6' : win0_3.index t (0 : Fin 2) = (i 0).val / 5000 := e6
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

end Proj

/-- The output array after the region's ten points, as one function of the arrays the region finds. -/
theorem region0 (c : Dev nD) :
    (dat0 (F := Ideal) V c).arrAt 3 cfg0.N = dense (A := 50000) (K := 128) (B := 64) (V c main_arg0) (V c main_arg3) (V c main_v4) :=
  (dat0 V c).arrAt_eq_of_cover 3 _ (fun t _ => Proj.flushed_eq V c t) Proj.cover

end Cert.Gin.Region

end
-- ==== Proof.Region1.lean ====
/-
  Region 1, the perceptron of message-passing layer 0, over its ten grid points: point t loads rows 5000·t … 5000·t + 4999
  of the node features and of the neighbour sums with the whole weight matrices and bias rows, and writes back the same
  rows of the result. Row p of point t's block is row 5000·t + p of the perceptron of the WHOLE arrays, and the ten blocks
  tile the 50000 rows: the output array ends holding the perceptron of the arrays the region finds.
-/
import proofs.«167774_j68470368632924_1_alg».proof.Proof.Gen.KernelIdeal.Frame
import proofs.«167774_j68470368632924_1_alg».proof.Proof.Body
import Idealize.ShloMosaic.Lib.Pipeline.Value

noncomputable section

namespace Cert.Gin.Region

open Cert.KernelIdeal Cert.KernelIdeal.Gen Idealize.ShloMosaic Idealize.ShloMosaic.TcCoe Idealize.SL.Sem
open Idealize.ShloMosaic.ValueIdx
open Idealize.ShloMosaic.Pipeline (Dat)
open Cert.RowOps Cert.RowBand Cert.Gin

variable (V : (c : Dev nD) → (b : Ref sig .tc) → Buf (Elt Ideal) ((c : Thread nD τ).loc b))

namespace Layer0

/-- Every access of the body starts at the origin of its buffer. -/
theorem origin : (![0, 0] : Fin 2 → Nat) = fun _ => 0 := funext fun a => by fin_cases a <;> rfl

/-- The block index maps, decided once over the grid: the node features, the neighbour sums and the result move down the
    node axis with the point, one block of rows per point; the weight matrices and the bias rows stay at block (0, 0). -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of point t's block of node features is row 5000·t + p of the node features. -/
theorem features_row (c : Dev nD) (t : Fin cfg1.N) (p : Fin 5000) (r : Fin 50000) (hr : r.val = 5000 * t.val + p.val) :
    RowEq (a := 5000) (N := 50000) (K := 64) (iblk1 V c 0 t) (V c main_v5) p r := fun k => by
  obtain ⟨e0, e1, -⟩ := index_maps t
  unfold iblk1
  rw [View.read_apply]
  show V c main_v5 _ = V c main_v5 _
  congr 1
  funext a; apply Fin.ext
  match a with
  | ⟨0, _⟩ => show win1_0.index t (0 : Fin 2) * 5000 + 1 * p.val = r.val; rw [e0, hr]; omega
  | ⟨1, _⟩ => show win1_0.index t (1 : Fin 2) * 64 + 1 * k.val = k.val; rw [e1]; omega

/-- Row p of point t's block of neighbour sums is row 5000·t + p of the neighbour sums. -/
theorem sums_row (c : Dev nD) (t : Fin cfg1.N) (p : Fin 5000) (r : Fin 50000) (hr : r.val = 5000 * t.val + p.val) :
    RowEq (a := 5000) (N := 50000) (K := 64) (iblk1 V c 1 t) (V c main_v15) p r := fun k => by
  obtain ⟨-, -, e0, e1, -⟩ := index_maps t
  unfold iblk1
  rw [View.read_apply]
  show V c main_v15 _ = V c main_v15 _
  congr 1
  funext a; apply Fin.ext
  match a with
  | ⟨0, _⟩ => show win1_1.index t (0 : Fin 2) * 5000 + 1 * p.val = r.val; rw [e0, hr]; omega
  | ⟨1, _⟩ => show win1_1.index t (1 : Fin 2) * 64 + 1 * k.val = k.val; rw [e1]; omega

/-- The first weight matrix is loaded whole at every point. -/
theorem weights1_whole (c : Dev nD) (t : Fin cfg1.N) : (iblk1 V c 2 t : Vec Ideal S64x64 .f32) = V c main_arg5 := by
  obtain ⟨-, -, -, -, e0, e1, -⟩ := index_maps t
  funext y
  unfold iblk1
  rw [View.read_apply]
  show V c main_arg5 _ = V c main_arg5 y
  congr 1
  funext a; apply Fin.ext
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

/-- The first bias row is loaded whole at every point. -/
theorem bias1_whole (c : Dev nD) (t : Fin cfg1.N) : (iblk1 V c 3 t : Vec Ideal S1x64 .f32) = V c main_v16 := by
  obtain ⟨-, -, -, -, -, -, e0, e1, -⟩ := index_maps t
  funext y
  unfold iblk1
  rw [View.read_apply]
  show V c main_v16 _ = V c main_v16 y
  congr 1
  funext a; apply Fin.ext
  match a with
  | ⟨0, _⟩ => show win1_3.index t (0 : Fin 2) * 1 + 1 * (y 0).val = (y 0).val; rw [e0]; omega
  | ⟨1, _⟩ => show win1_3.index t (1 : Fin 2) * 64 + 1 * (y 1).val = (y 1).val; rw [e1]; omega

/-- The second weight matrix is loaded whole at every point. -/
theorem weights2_whole (c : Dev nD) (t : Fin cfg1.N) : (iblk1 V c 4 t : Vec Ideal S64x64 .f32) = V c main_arg7 := by
  obtain ⟨-, -, -, -, -, -, -, -, e0, e1, -⟩ := index_maps t
  funext y
  unfold iblk1
  rw [View.read_apply]
  show V c main_arg7 _ = V c main_arg7 y
  congr 1
  funext a; apply Fin.ext
  match a with
  | ⟨0, _⟩ => show win1_4.index t (0 : Fin 2) * 64 + 1 * (y 0).val = (y 0).val; rw [e0]; omega
  | ⟨1, _⟩ => show win1_4.index t (1 : Fin 2) * 64 + 1 * (y 1).val = (y 1).val; rw [e1]; omega

/-- The second bias row is loaded whole at every point. -/
theorem bias2_whole (c : Dev nD) (t : Fin cfg1.N) : (iblk1 V c 5 t : Vec Ideal S1x64 .f32) = V c main_v17 := by
  obtain ⟨-, -, -, -, -, -, -, -, -, -, e0, e1, -⟩ := index_maps t
  funext y
  unfold iblk1
  rw [View.read_apply]
  show V c main_v17 _ = V c main_v17 y
  congr 1
  funext a; apply Fin.ext
  match a with
  | ⟨0, _⟩ => show win1_5.index t (0 : Fin 2) * 1 + 1 * (y 0).val = (y 0).val; rw [e0]; omega
  | ⟨1, _⟩ => show win1_5.index t (1 : Fin 2) * 64 + 1 * (y 1).val = (y 1).val; rw [e1]; omega

/-- What point t writes back is block t of the perceptron of the whole arrays: row p of the block's perceptron is row
    5000·t + p of the arrays' perceptron, which is where row p of the result's block sits. -/
theorem flushed (c : Dev nD) (t : Fin cfg1.N) :
    (dat1 (F := Ideal) V c).flushed 6 t = ((cfg1.win 6).blk t).view.read (Elt Ideal)
      (mlp (A := 50000) (K := 64) (V c main_v5) (V c main_v15) (V c main_arg5) (V c main_v16) (V c main_arg7) (V c main_v17)) := by
  show (cfg1.win 6).cut (grid1.coords t) ((dat1 V c).after 6 t) = _
  rw [after1_6]
  unfold out1_6
  rw [View.canon_unit_zero origin]
  simp only [View.ld_unit_zero (S := S5000x64) origin, View.ld_unit_zero (S := S64x64) origin, View.ld_unit_zero (S := S1x64) origin]
  rw [Cert.Gin.Body.pay1_eq, weights1_whole V c t, bias1_whole V c t, weights2_whole V c t, bias2_whole V c t]
  funext j
  obtain ⟨p, q, rfl⟩ : ∃ (p : Fin 5000) (q : Fin 64), j = ix2 p q := ⟨j 0, j 1, eq_ix2 j⟩
  obtain ⟨-, -, -, -, -, -, -, -, -, -, -, -, e0, e1⟩ := index_maps t
  have hN : cfg1.N = 10 := N_1
  have ht : t.val < 10 := hN ▸ t.isLt
  have hr : 5000 * t.val + p.val < 50000 := by have := p.isLt; omega
  show mlp (A := 5000) (K := 64) (iblk1 V c 0 t) (iblk1 V c 1 t) (V c main_arg5) (V c main_v16) (V c main_arg7) (V c main_v17) (ix2 p q)
      = mlp (A := 50000) (K := 64) (V c main_v5) (V c main_v15) (V c main_arg5) (V c main_v16) (V c main_arg7) (V c main_v17)
          (((cfg1.win 6).blk t).view.emb (ix2 p q))
  refine (RowEq.mlp (features_row V c t p ⟨5000 * t.val + p.val, hr⟩ rfl) (sums_row V c t p ⟨5000 * t.val + p.val, hr⟩ rfl)
    (V c main_arg5) (V c main_v16) (V c main_arg7) (V c main_v17) q).trans ?_
  congr 1
  funext a; apply Fin.ext
  match a with
  | ⟨0, _⟩ => show 5000 * t.val + p.val = win1_6.index t (0 : Fin 2) * 5000 + 1 * p.val; rw [e0]; omega
  | ⟨1, _⟩ => show q.val = win1_6.index t (1 : Fin 2) * 64 + 1 * q.val; rw [e1]; omega

/-- An index of the result is in point t's block iff each coordinate is in the block's range on its axis. -/
theorem mem_block (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v18).slice (win1_6.rect t)).set ↔ _
  rw [View.set_slice_whole, Rect.mem_set_unit]
  exact Iff.rfl

/-- The ten blocks tile the node axis: row r of the result is in the block of point r / 5000, and every point writes back. -/
theorem covered (i : S50000x64.Idx) : ∃ t : Fin cfg1.N, (cfg1.win 6).flush t = true ∧ i ∈ ((cfg1.win 6).blk t).view.set := by
  have hN : cfg1.N = 10 := N_1
  have hi0 : (i 0).val < 50000 := (i 0).isLt
  have hi1 : (i 1).val < 64 := (i 1).isLt
  have hlt : (i 0).val / 5000 < cfg1.N := by rw [hN]; omega
  obtain ⟨-, -, -, -, -, -, -, -, -, -, -, -, e0, e1⟩ := index_maps ⟨(i 0).val / 5000, hlt⟩
  refine ⟨⟨(i 0).val / 5000, hlt⟩, flush1_6 _, ?_⟩
  rw [mem_block]
  intro a
  match a with
  | ⟨0, _⟩ =>
    show win1_6.index ⟨(i 0).val / 5000, hlt⟩ (0 : Fin 2) * 5000 ≤ (i 0).val ∧ (i 0).val < win1_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, hlt⟩ (1 : Fin 2) * 64 ≤ (i 1).val ∧ (i 1).val < win1_6.index ⟨(i 0).val / 5000, hlt⟩ (1 : Fin 2) * 64 + 64
    rw [e1]; omega

end Layer0

/-- The output array after the region's ten points, as one function of the arrays the region finds. -/
theorem region1 (c : Dev nD) :
    (dat1 (F := Ideal) V c).arrAt 6 cfg1.N = mlp (A := 50000) (K := 64) (V c main_v5) (V c main_v15) (V c main_arg5) (V c main_v16) (V c main_arg7) (V c main_v17) :=
  (dat1 V c).arrAt_eq_of_cover 6 _ (fun t _ => Layer0.flushed V c t) Layer0.covered

end Cert.Gin.Region

end
-- ==== Proof.Region2.lean ====
/-
  Region 2, the perceptron of message-passing layer 1, over its ten grid points: point t loads rows 5000·t … 5000·t + 4999
  of the node features and of the neighbour sums with the whole weight matrices and bias rows, and writes back the same
  rows of the result. Row p of point t's block is row 5000·t + p of the perceptron of the WHOLE arrays, and the ten blocks
  tile the 50000 rows: the output array ends holding the perceptron of the arrays the region finds.
-/
import proofs.«167774_j68470368632924_1_alg».proof.Proof.Gen.KernelIdeal.Frame
import proofs.«167774_j68470368632924_1_alg».proof.Proof.Body
import Idealize.ShloMosaic.Lib.Pipeline.Value

noncomputable section

namespace Cert.Gin.Region

open Cert.KernelIdeal Cert.KernelIdeal.Gen Idealize.ShloMosaic Idealize.ShloMosaic.TcCoe Idealize.SL.Sem
open Idealize.ShloMosaic.ValueIdx
open Idealize.ShloMosaic.Pipeline (Dat)
open Cert.RowOps Cert.RowBand Cert.Gin

variable (V : (c : Dev nD) → (b : Ref sig .tc) → Buf (Elt Ideal) ((c : Thread nD τ).loc b))

namespace Layer1

/-- Every access of the body starts at the origin of its buffer. -/
theorem origin : (![0, 0] : Fin 2 → Nat) = fun _ => 0 := funext fun a => by fin_cases a <;> rfl

/-- The block index maps, decided once over the grid: the node features, the neighbour sums and the result move down the
    node axis with the point, one block of rows per point; the weight matrices and the bias rows stay at block (0, 0). -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row p of point t's block of node features is row 5000·t + p of the node features. -/
theorem features_row (c : Dev nD) (t : Fin cfg2.N) (p : Fin 5000) (r : Fin 50000) (hr : r.val = 5000 * t.val + p.val) :
    RowEq (a := 5000) (N := 50000) (K := 64) (iblk2 V c 0 t) (V c main_v18) p r := fun k => by
  obtain ⟨e0, e1, -⟩ := index_maps t
  unfold iblk2
  rw [View.read_apply]
  show V c main_v18 _ = V c main_v18 _
  congr 1
  funext a; apply Fin.ext
  match a with
  | ⟨0, _⟩ => show win2_0.index t (0 : Fin 2) * 5000 + 1 * p.val = r.val; rw [e0, hr]; omega
  | ⟨1, _⟩ => show win2_0.index t (1 : Fin 2) * 64 + 1 * k.val = k.val; rw [e1]; omega

/-- Row p of point t's block of neighbour sums is row 5000·t + p of the neighbour sums. -/
theorem sums_row (c : Dev nD) (t : Fin cfg2.N) (p : Fin 5000) (r : Fin 50000) (hr : r.val = 5000 * t.val + p.val) :
    RowEq (a := 5000) (N := 50000) (K := 64) (iblk2 V c 1 t) (V c main_v28) p r := fun k => by
  obtain ⟨-, -, e0, e1, -⟩ := index_maps t
  unfold iblk2
  rw [View.read_apply]
  show V c main_v28 _ = V c main_v28 _
  congr 1
  funext a; apply Fin.ext
  match a with
  | ⟨0, _⟩ => show win2_1.index t (0 : Fin 2) * 5000 + 1 * p.val = r.val; rw [e0, hr]; omega
  | ⟨1, _⟩ => show win2_1.index t (1 : Fin 2) * 64 + 1 * k.val = k.val; rw [e1]; omega

/-- The first weight matrix is loaded whole at every point. -/
theorem weights1_whole (c : Dev nD) (t : Fin cfg2.N) : (iblk2 V c 2 t : Vec Ideal S64x64 .f32) = V c main_arg9 := by
  obtain ⟨-, -, -, -, e0, e1, -⟩ := index_maps t
  funext y
  unfold iblk2
  rw [View.read_apply]
  show V c main_arg9 _ = V c main_arg9 y
  congr 1
  funext a; apply Fin.ext
  match a with
  | ⟨0, _⟩ => show win2_2.index t (0 : Fin 2) * 64 + 1 * (y 0).val = (y 0).val; rw [e0]; omega
  | ⟨1, _⟩ => show win2_2.index t (1 : Fin 2) * 64 + 1 * (y 1).val = (y 1).val; rw [e1]; omega

/-- The first bias row is loaded whole at every point. -/
theorem bias1_whole (c : Dev nD) (t : Fin cfg2.N) : (iblk2 V c 3 t : Vec Ideal S1x64 .f32) = V c main_v29 := by
  obtain ⟨-, -, -, -, -, -, e0, e1, -⟩ := index_maps t
  funext y
  unfold iblk2
  rw [View.read_apply]
  show V c main_v29 _ = V c main_v29 y
  congr 1
  funext a; apply Fin.ext
  match a with
  | ⟨0, _⟩ => show win2_3.index t (0 : Fin 2) * 1 + 1 * (y 0).val = (y 0).val; rw [e0]; omega
  | ⟨1, _⟩ => show win2_3.index t (1 : Fin 2) * 64 + 1 * (y 1).val = (y 1).val; rw [e1]; omega

/-- The second weight matrix is loaded whole at every point. -/
theorem weights2_whole (c : Dev nD) (t : Fin cfg2.N) : (iblk2 V c 4 t : Vec Ideal S64x64 .f32) = V c main_arg11 := by
  obtain ⟨-, -, -, -, -, -, -, -, e0, e1, -⟩ := index_maps t
  funext y
  unfold iblk2
  rw [View.read_apply]
  show V c main_arg11 _ = V c main_arg11 y
  congr 1
  funext a; apply Fin.ext
  match a with
  | ⟨0, _⟩ => show win2_4.index t (0 : Fin 2) * 64 + 1 * (y 0).val = (y 0).val; rw [e0]; omega
  | ⟨1, _⟩ => show win2_4.index t (1 : Fin 2) * 64 + 1 * (y 1).val = (y 1).val; rw [e1]; omega

/-- The second bias row is loaded whole at every point. -/
theorem bias2_whole (c : Dev nD) (t : Fin cfg2.N) : (iblk2 V c 5 t : Vec Ideal S1x64 .f32) = V c main_v30 := by
  obtain ⟨-, -, -, -, -, -, -, -, -, -, e0, e1, -⟩ := index_maps t
  funext y
  unfold iblk2
  rw [View.read_apply]
  show V c main_v30 _ = V c main_v30 y
  congr 1
  funext a; apply Fin.ext
  match a with
  | ⟨0, _⟩ => show win2_5.index t (0 : Fin 2) * 1 + 1 * (y 0).val = (y 0).val; rw [e0]; omega
  | ⟨1, _⟩ => show win2_5.index t (1 : Fin 2) * 64 + 1 * (y 1).val = (y 1).val; rw [e1]; omega

/-- What point t writes back is block t of the perceptron of the whole arrays: row p of the block's perceptron is row
    5000·t + p of the arrays' perceptron, which is where row p of the result's block sits. -/
theorem flushed (c : Dev nD) (t : Fin cfg2.N) :
    (dat2 (F := Ideal) V c).flushed 6 t = ((cfg2.win 6).blk t).view.read (Elt Ideal)
      (mlp (A := 50000) (K := 64) (V c main_v18) (V c main_v28) (V c main_arg9) (V c main_v29) (V c main_arg11) (V c main_v30)) := by
  show (cfg2.win 6).cut (grid2.coords t) ((dat2 V c).after 6 t) = _
  rw [after2_6]
  unfold out2_6
  rw [View.canon_unit_zero origin]
  simp only [View.ld_unit_zero (S := S5000x64) origin, View.ld_unit_zero (S := S64x64) origin, View.ld_unit_zero (S := S1x64) origin]
  rw [Cert.Gin.Body.pay2_eq, weights1_whole V c t, bias1_whole V c t, weights2_whole V c t, bias2_whole V c t]
  funext j
  obtain ⟨p, q, rfl⟩ : ∃ (p : Fin 5000) (q : Fin 64), j = ix2 p q := ⟨j 0, j 1, eq_ix2 j⟩
  obtain ⟨-, -, -, -, -, -, -, -, -, -, -, -, e0, e1⟩ := index_maps t
  have hN : cfg2.N = 10 := N_2
  have ht : t.val < 10 := hN ▸ t.isLt
  have hr : 5000 * t.val + p.val < 50000 := by have := p.isLt; omega
  show mlp (A := 5000) (K := 64) (iblk2 V c 0 t) (iblk2 V c 1 t) (V c main_arg9) (V c main_v29) (V c main_arg11) (V c main_v30) (ix2 p q)
      = mlp (A := 50000) (K := 64) (V c main_v18) (V c main_v28) (V c main_arg9) (V c main_v29) (V c main_arg11) (V c main_v30)
          (((cfg2.win 6).blk t).view.emb (ix2 p q))
  refine (RowEq.mlp (features_row V c t p ⟨5000 * t.val + p.val, hr⟩ rfl) (sums_row V c t p ⟨5000 * t.val + p.val, hr⟩ rfl)
    (V c main_arg9) (V c main_v29) (V c main_arg11) (V c main_v30) q).trans ?_
  congr 1
  funext a; apply Fin.ext
  match a with
  | ⟨0, _⟩ => show 5000 * t.val + p.val = win2_6.index t (0 : Fin 2) * 5000 + 1 * p.val; rw [e0]; omega
  | ⟨1, _⟩ => show q.val = win2_6.index t (1 : Fin 2) * 64 + 1 * q.val; rw [e1]; omega

/-- An index of the result is in point t's block iff each coordinate is in the block's range on its axis. -/
theorem mem_block (t : Fin cfg2.N) (i : S50000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v31).slice (win2_6.rect t)).set ↔ _
  rw [View.set_slice_whole, Rect.mem_set_unit]
  exact Iff.rfl

/-- The ten blocks tile the node axis: row r of the result is in the block of point r / 5000, and every point writes back. -/
theorem covered (i : S50000x64.Idx) : ∃ t : Fin cfg2.N, (cfg2.win 6).flush t = true ∧ i ∈ ((cfg2.win 6).blk t).view.set := by
  have hN : cfg2.N = 10 := N_2
  have hi0 : (i 0).val < 50000 := (i 0).isLt
  have hi1 : (i 1).val < 64 := (i 1).isLt
  have hlt : (i 0).val / 5000 < cfg2.N := by rw [hN]; omega
  obtain ⟨-, -, -, -, -, -, -, -, -, -, -, -, e0, e1⟩ := index_maps ⟨(i 0).val / 5000, hlt⟩
  refine ⟨⟨(i 0).val / 5000, hlt⟩, flush2_6 _, ?_⟩
  rw [mem_block]
  intro a
  match a with
  | ⟨0, _⟩ =>
    show win2_6.index ⟨(i 0).val / 5000, hlt⟩ (0 : Fin 2) * 5000 ≤ (i 0).val ∧ (i 0).val < win2_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_6.index ⟨(i 0).val / 5000, hlt⟩ (1 : Fin 2) * 64 ≤ (i 1).val ∧ (i 1).val < win2_6.index ⟨(i 0).val / 5000, hlt⟩ (1 : Fin 2) * 64 + 64
    rw [e1]; omega

end Layer1

/-- The output array after the region's ten points, as one function of the arrays the region finds. -/
theorem region2 (c : Dev nD) :
    (dat2 (F := Ideal) V c).arrAt 6 cfg2.N = mlp (A := 50000) (K := 64) (V c main_v18) (V c main_v28) (V c main_arg9) (V c main_v29) (V c main_arg11) (V c main_v30) :=
  (dat2 V c).arrAt_eq_of_cover 6 _ (fun t _ => Layer1.flushed V c t) Layer1.covered

end Cert.Gin.Region

end
-- ==== Proof.Spec.lean ====
/-
  What the encoder computes, as ONE function of its thirteen argument arrays, on extended reals.

    h0 = dense x Wp bp                                      the input projection, [50000, 64]
    h1 = mlp h0 (aggregate h0 e) W1_0 b1_0 W2_0 b2_0        message-passing layer 0
    h2 = mlp h1 (aggregate h1 e) W1_1 b1_1 W2_1 b2_1        message-passing layer 1
    out = pool h2 batch                                      the mean of each graph's node rows, [256, 64]

  `aggregate h e` is the neighbour sum: row n is the sum, over the edges whose target (row 1 of e) is n, of row
  h(source) — the source (row 0 of e) counted from the end when negative. `pool h batch` divides each graph's row sum
  by its node count, the count taken at least 1. Both are written with the host's own gather and scatter-add, which the
  two programs apply alike: neither is ever opened. The dense layers are the row operations of Layers, which is where
  the two programs differ in form (one whole product against a product per band of 5000 rows).
-/
import proofs.«167774_j68470368632924_1_alg».proof.Proof.Gen.ReferenceIdeal
import proofs.«167774_j68470368632924_1_alg».proof.Proof.Layers

noncomputable section

namespace Cert.Gin

open Cert.ReferenceIdeal Cert.ReferenceIdeal.Gen Idealize.ShloMosaic Idealize.ShloMosaic.TcCoe

/-- A bias vector [64] as a row [1, 64]. -/
def biasRow (b : (⟨S64, .f32⟩ : BufTy).Contents (Elt Ideal)) : (⟨S1x64, .f32⟩ : BufTy).Contents (Elt Ideal) :=
  broadcastInDim S1x64 ![1] bcast_S64_S1x64_1 b

/-- The edges' sources: row 0 of the edge array, as a vector. -/
def sources (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000

/-- The edges' targets: row 1 of the edge array, as a vector. -/
def targets (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

/-- The rows of h at the edges' sources, a negative source counted from the end: [800000, 64]. -/
def messages (h : (⟨S50000x64, .f32⟩ : BufTy).Contents (Elt Ideal)) (src : (⟨S800000, .i32⟩ : BufTy).Contents (Elt Ideal)) :
    (⟨S800000x64, .f32⟩ : BufTy).Contents (Elt Ideal) :=
  Host.gather gather_S50000x64_S800000x1_S800000x64_1_0_n_n_0_1_164 h
    (broadcastInDim S800000x1 ![0] bcast_S800000_S800000x1_0
      (select (cmpi .slt src (broadcastInDim S800000 ![] bcast_S_S800000 (constantI S_ 32 0#32)))
        (addi src (broadcastInDim S800000 ![] bcast_S_S800000 (constantI S_ 32 50000#32))) src))

/-- The neighbour sum: the messages added into a zero array at the edges' targets. -/
def aggregate (h : (⟨S50000x64, .f32⟩ : BufTy).Contents (Elt Ideal)) (e : (⟨S2x800000, .i32⟩ : BufTy).Contents (Elt Ideal)) :
    (⟨S50000x64, .f32⟩ : BufTy).Contents (Elt Ideal) :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 (targets e))
    (messages h (sources e))

/-- The mean of each graph's node rows: the rows added into a zero [256, 64] array at the nodes' graph numbers, divided
    by the graph's node count (ones added into a zero [256] array at the same numbers), the count taken at least 1. -/
def pool (h : (⟨S50000x64, .f32⟩ : BufTy).Contents (Elt Ideal)) (batch : (⟨S50000, .i32⟩ : BufTy).Contents (Elt Ideal)) :
    (⟨S256x64, .f32⟩ : BufTy).Contents (Elt Ideal) :=
  Host.divf (F := Ideal)
    (Host.scatterAdd (F := Ideal) scatter_S256x64_S50000x1_S50000x64_1_0_0_1
      (broadcastInDim S256x64 ![] bcast_S_S256x64 (constant (F := Ideal) S_ .f32 0x00000000#32))
      (broadcastInDim S50000x1 ![0] bcast_S50000_S50000x1_0 batch) h)
    (broadcastInDim S256x64 ![0, 1] bcast_S256x1_S256x64_0_1 (broadcastInDim S256x1 ![0] bcast_S256_S256x1_0
      (maximumf
        (Host.scatterAdd (F := Ideal) scatter_S256_S50000x1_S50000_n_0_0_1
          (broadcastInDim S256 ![] bcast_S_S256 (constant (F := Ideal) S_ .f32 0x00000000#32))
          (broadcastInDim S50000x1 ![0] bcast_S50000_S50000x1_0 batch)
          (broadcastInDim S50000 ![] bcast_S_S50000 (constant (F := Ideal) S_ .f32 0x3F800000#32)))
        (broadcastInDim S256 ![] bcast_S_S256 (constant (F := Ideal) S_ .f32 0x3F800000#32)))))

/-- The input projection. -/
def h0 (x : (⟨S50000x128, .f32⟩ : BufTy).Contents (Elt Ideal)) (Wp : (⟨S128x64, .f32⟩ : BufTy).Contents (Elt Ideal))
    (bp : (⟨S64, .f32⟩ : BufTy).Contents (Elt Ideal)) : (⟨S50000x64, .f32⟩ : BufTy).Contents (Elt Ideal) :=
  dense (A := 50000) (K := 128) (B := 64) x Wp (biasRow bp)

/-- One message-passing layer on node features h. -/
def layer (h : (⟨S50000x64, .f32⟩ : BufTy).Contents (Elt Ideal)) (e : (⟨S2x800000, .i32⟩ : BufTy).Contents (Elt Ideal))
    (W1 : (⟨S64x64, .f32⟩ : BufTy).Contents (Elt Ideal)) (b1 : (⟨S64, .f32⟩ : BufTy).Contents (Elt Ideal))
    (W2 : (⟨S64x64, .f32⟩ : BufTy).Contents (Elt Ideal)) (b2 : (⟨S64, .f32⟩ : BufTy).Contents (Elt Ideal)) :
    (⟨S50000x64, .f32⟩ : BufTy).Contents (Elt Ideal) :=
  mlp (A := 50000) (K := 64) h (aggregate h e) W1 (biasRow b1) W2 (biasRow b2)

/-- The encoder's result as one function of the thirteen argument arrays. -/
def out (x : (⟨S50000x128, .f32⟩ : BufTy).Contents (Elt Ideal)) (e : (⟨S2x800000, .i32⟩ : BufTy).Contents (Elt Ideal))
    (batch : (⟨S50000, .i32⟩ : BufTy).Contents (Elt Ideal)) (Wp : (⟨S128x64, .f32⟩ : BufTy).Contents (Elt Ideal))
    (bp : (⟨S64, .f32⟩ : BufTy).Contents (Elt Ideal))
    (W1_0 : (⟨S64x64, .f32⟩ : BufTy).Contents (Elt Ideal)) (b1_0 : (⟨S64, .f32⟩ : BufTy).Contents (Elt Ideal))
    (W2_0 : (⟨S64x64, .f32⟩ : BufTy).Contents (Elt Ideal)) (b2_0 : (⟨S64, .f32⟩ : BufTy).Contents (Elt Ideal))
    (W1_1 : (⟨S64x64, .f32⟩ : BufTy).Contents (Elt Ideal)) (b1_1 : (⟨S64, .f32⟩ : BufTy).Contents (Elt Ideal))
    (W2_1 : (⟨S64x64, .f32⟩ : BufTy).Contents (Elt Ideal)) (b2_1 : (⟨S64, .f32⟩ : BufTy).Contents (Elt Ideal)) :
    (⟨S256x64, .f32⟩ : BufTy).Contents (Elt Ideal) :=
  pool (layer (layer (h0 x Wp bp) e W1_0 b1_0 W2_0 b2_0) e W1_1 b1_1 W2_1 b2_1) batch

end Cert.Gin

end
-- ==== Proof.Fold.lean ====
/-
  The fold through the idealized kernel's seven segments, read at the result buffer: the last boundary's contents there
  are the encoder's function of the launch contents of the thirteen argument arrays.

  Walking back from the result: the last stretch of host operations pools region 2's output; region 2's output is the
  perceptron of region 1's output and its neighbour sum (a stretch of host operations); region 1's output is the
  perceptron of region 0's output and its neighbour sum; region 0's output is the dense layer of x. A buffer that a
  segment does not write keeps its contents across it, so the edge rows, the reshaped bias rows and the arguments are
  read where they were made. The host's gather and scatter-add are the reference's, under records of the same fields.
-/
import proofs.«167774_j68470368632924_1_alg».proof.Proof.Gen.KernelIdeal.Frame
import proofs.«167774_j68470368632924_1_alg».proof.Proof.Region0
import proofs.«167774_j68470368632924_1_alg».proof.Proof.Region1
import proofs.«167774_j68470368632924_1_alg».proof.Proof.Region2
import proofs.«167774_j68470368632924_1_alg».proof.Proof.Spec
import Idealize.ShloMosaic.Lib.StableHlo.Run

noncomputable section

namespace Cert.Gin.Fold

open Cert.KernelIdeal Cert.KernelIdeal.Gen Idealize.ShloMosaic Idealize.ShloMosaic.TcCoe Idealize.SL.Sem
open Cert.Gin

variable (m : (ℓ : Loc nD τ sig) → Buf (Elt Ideal) ℓ) (ρ : Dev nD → PrngReg)

/-! ## Two tactics for "this stretch of host operations does not write this buffer" -/

/-- Decides, operation by operation, that a literal stretch of host operations does not write a given buffer. -/
local macro "unwritten" : tactic => `(tactic| (
  refine List.forall_iff_forall_mem.mp ?_
  simp only [hostOps0, hostOps1, hostOps2, hostOps3, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-- A buffer that no operation of a stretch writes keeps its contents across the stretch. -/
local macro "kept" : tactic => `(tactic| (
  refine StableHlo.after_of_forall_not_mem _ _ ?_
  unwritten))

/-! ## The kernel program's gather and scatter records are the reference's

The two programs print their own copies of the host operations' dimension records; the fields are the same literals. -/

theorem gather_eq :
    Cert.KernelIdeal.gather_S50000x64_S800000x1_S800000x64_1_0_n_n_0_1_164
      = Cert.ReferenceIdeal.gather_S50000x64_S800000x1_S800000x64_1_0_n_n_0_1_164 := rfl

theorem scatter_nodes_eq :
    Cert.KernelIdeal.scatter_S50000x64_S800000x1_S800000x64_1_0_0_1
      = Cert.ReferenceIdeal.scatter_S50000x64_S800000x1_S800000x64_1_0_0_1 := rfl

theorem scatter_graphs_eq :
    Cert.KernelIdeal.scatter_S256x64_S50000x1_S50000x64_1_0_0_1
      = Cert.ReferenceIdeal.scatter_S256x64_S50000x1_S50000x64_1_0_0_1 := rfl

theorem scatter_counts_eq :
    Cert.KernelIdeal.scatter_S256_S50000x1_S50000_n_0_0_1
      = Cert.ReferenceIdeal.scatter_S256_S50000x1_S50000_n_0_0_1 := rfl

section Walk

variable (c : Dev nD)

set_option quotPrecheck false

local notation "A₀" => m ((c.tc : Thread nD τ).loc main_arg0)
local notation "A₁" => m ((c.tc : Thread nD τ).loc main_arg1)
local notation "A₂" => m ((c.tc : Thread nD τ).loc main_arg2)
local notation "A₃" => m ((c.tc : Thread nD τ).loc main_arg3)
local notation "A₄" => m ((c.tc : Thread nD τ).loc main_arg4)
local notation "A₅" => m ((c.tc : Thread nD τ).loc main_arg5)
local notation "A₆" => m ((c.tc : Thread nD τ).loc main_arg6)
local notation "A₇" => m ((c.tc : Thread nD τ).loc main_arg7)
local notation "A₈" => m ((c.tc : Thread nD τ).loc main_arg8)
local notation "A₉" => m ((c.tc : Thread nD τ).loc main_arg9)
local notation "A₁₀" => m ((c.tc : Thread nD τ).loc main_arg10)
local notation "A₁₁" => m ((c.tc : Thread nD τ).loc main_arg11)
local notation "A₁₂" => m ((c.tc : Thread nD τ).loc main_arg12)

/-! ## A buffer that nothing writes holds its launch contents at every boundary -/

theorem keep1 (b : Ref sig .tc)
    (h0 : ∀ op ∈ (hostOps0 : List (HloOp τ sig (Elt Ideal))), Proc.devRef (τ := τ) .tc b ∉ op.writes) :
    W1 (F := Ideal) m ρ c (Proc.devRef .tc b) = m ((c.tc : Thread nD τ).loc b) :=
  StableHlo.after_of_forall_not_mem _ _ h0

theorem keep2 (b : Ref sig .tc)
    (h0 : ∀ op ∈ (hostOps0 : List (HloOp τ sig (Elt Ideal))), Proc.devRef (τ := τ) .tc b ∉ op.writes)
    (n0 : ∀ w, Pipeline.arrRef spec0 w ≠ b) :
    W2 (F := Ideal) m ρ c (Proc.devRef .tc b) = m ((c.tc : Thread nD τ).loc b) :=
  (W2_of_ne m ρ c b n0).trans (keep1 m ρ c b h0)

theorem keep3 (b : Ref sig .tc)
    (h0 : ∀ op ∈ (hostOps0 : List (HloOp τ sig (Elt Ideal))), Proc.devRef (τ := τ) .tc b ∉ op.writes)
    (n0 : ∀ w, Pipeline.arrRef spec0 w ≠ b)
    (h1 : ∀ op ∈ (hostOps1 : List (HloOp τ sig (Elt Ideal))), Proc.devRef (τ := τ) .tc b ∉ op.writes) :
    W3 (F := Ideal) m ρ c (Proc.devRef .tc b) = m ((c.tc : Thread nD τ).loc b) :=
  (StableHlo.after_of_forall_not_mem _ _ h1).trans (keep2 m ρ c b h0 n0)

theorem keep4 (b : Ref sig .tc)
    (h0 : ∀ op ∈ (hostOps0 : List (HloOp τ sig (Elt Ideal))), Proc.devRef (τ := τ) .tc b ∉ op.writes)
    (n0 : ∀ w, Pipeline.arrRef spec0 w ≠ b)
    (h1 : ∀ op ∈ (hostOps1 : List (HloOp τ sig (Elt Ideal))), Proc.devRef (τ := τ) .tc b ∉ op.writes)
    (n1 : ∀ w, Pipeline.arrRef spec1 w ≠ b) :
    W4 (F := Ideal) m ρ c (Proc.devRef .tc b) = m ((c.tc : Thread nD τ).loc b) :=
  (W4_of_ne m ρ c b n1).trans (keep3 m ρ c b h0 n0 h1)

theorem keep5 (b : Ref sig .tc)
    (h0 : ∀ op ∈ (hostOps0 : List (HloOp τ sig (Elt Ideal))), Proc.devRef (τ := τ) .tc b ∉ op.writes)
    (n0 : ∀ w, Pipeline.arrRef spec0 w ≠ b)
    (h1 : ∀ op ∈ (hostOps1 : List (HloOp τ sig (Elt Ideal))), Proc.devRef (τ := τ) .tc b ∉ op.writes)
    (n1 : ∀ w, Pipeline.arrRef spec1 w ≠ b)
    (h2 : ∀ op ∈ (hostOps2 : List (HloOp τ sig (Elt Ideal))), Proc.devRef (τ := τ) .tc b ∉ op.writes) :
    W5 (F := Ideal) m ρ c (Proc.devRef .tc b) = m ((c.tc : Thread nD τ).loc b) :=
  (StableHlo.after_of_forall_not_mem _ _ h2).trans (keep4 m ρ c b h0 n0 h1 n1)

theorem keep6 (b : Ref sig .tc)
    (h0 : ∀ op ∈ (hostOps0 : List (HloOp τ sig (Elt Ideal))), Proc.devRef (τ := τ) .tc b ∉ op.writes)
    (n0 : ∀ w, Pipeline.arrRef spec0 w ≠ b)
    (h1 : ∀ op ∈ (hostOps1 : List (HloOp τ sig (Elt Ideal))), Proc.devRef (τ := τ) .tc b ∉ op.writes)
    (n1 : ∀ w, Pipeline.arrRef spec1 w ≠ b)
    (h2 : ∀ op ∈ (hostOps2 : List (HloOp τ sig (Elt Ideal))), Proc.devRef (τ := τ) .tc b ∉ op.writes)
    (n2 : ∀ w, Pipeline.arrRef spec2 w ≠ b) :
    W6 (F := Ideal) m ρ c (Proc.devRef .tc b) = m ((c.tc : Thread nD τ).loc b) :=
  (W6_of_ne m ρ c b n2).trans (keep5 m ρ c b h0 n0 h1 n1 h2)

/-! ## The first stretch: the edge rows and the projection's bias row -/

theorem W1_arg0 : W1 (F := Ideal) m ρ c (Proc.devRef .tc main_arg0) = A₀ := keep1 m ρ c main_arg0 (by unwritten)
theorem W1_arg3 : W1 (F := Ideal) m ρ c (Proc.devRef .tc main_arg3) = A₃ := keep1 m ρ c main_arg3 (by unwritten)

theorem W1_v1 : W1 (F := Ideal) m ρ c (Proc.devRef .tc main_v1) = sources A₁ := by
  show StableHlo.after hostOps0 (W0 m ρ c) (Proc.devRef .tc main_v1) = _
  after_results
  rfl

theorem W1_v3 : W1 (F := Ideal) m ρ c (Proc.devRef .tc main_v3) = targets A₁ := by
  show StableHlo.after hostOps0 (W0 m ρ c) (Proc.devRef .tc main_v3) = _
  after_results
  rfl

theorem W1_v4 : W1 (F := Ideal) m ρ c (Proc.devRef .tc main_v4) = biasRow A₄ := by
  show StableHlo.after hostOps0 (W0 m ρ c) (Proc.devRef .tc main_v4) = _
  after_results
  exact Cert.RowOps.rowCast_eq_bcast (B := 64) shapeCasts_S64_S1x64 Cert.ReferenceIdeal.Gen.bcast_S64_S1x64_1 A₄

/-! ## Region 0: the input projection -/

theorem W2_v5 : W2 (F := Ideal) m ρ c (Proc.devRef .tc main_v5) = h0 A₀ A₃ A₄ :=
  (W2_arr m ρ c 3).trans ((Cert.Gin.Region.region0 (V1 m ρ) c).trans (by
    show dense (W1 m ρ c (Proc.devRef .tc main_arg0)) (W1 m ρ c (Proc.devRef .tc main_arg3))
        (W1 m ρ c (Proc.devRef .tc main_v4)) = _
    rw [W1_arg0 m ρ c, W1_arg3 m ρ c, W1_v4 m ρ c]
    rfl))

theorem W2_v1 : W2 (F := Ideal) m ρ c (Proc.devRef .tc main_v1) = sources A₁ :=
  (W2_of_ne m ρ c main_v1 (by decide)).trans (W1_v1 m ρ c)
theorem W2_v3 : W2 (F := Ideal) m ρ c (Proc.devRef .tc main_v3) = targets A₁ :=
  (W2_of_ne m ρ c main_v3 (by decide)).trans (W1_v3 m ρ c)

/-! ## The second stretch: the neighbour sum of the projection, and layer 0's bias rows -/

theorem W2_arg6 : W2 (F := Ideal) m ρ c (Proc.devRef .tc main_arg6) = A₆ :=
  keep2 m ρ c main_arg6 (by unwritten) (by decide)
theorem W2_arg8 : W2 (F := Ideal) m ρ c (Proc.devRef .tc main_arg8) = A₈ :=
  keep2 m ρ c main_arg8 (by unwritten) (by decide)
theorem W3_arg5 : W3 (F := Ideal) m ρ c (Proc.devRef .tc main_arg5) = A₅ :=
  keep3 m ρ c main_arg5 (by unwritten) (by decide) (by unwritten)
theorem W3_arg7 : W3 (F := Ideal) m ρ c (Proc.devRef .tc main_arg7) = A₇ :=
  keep3 m ρ c main_arg7 (by unwritten) (by decide) (by unwritten)

theorem W3_v5 : W3 (F := Ideal) m ρ c (Proc.devRef .tc main_v5) = h0 A₀ A₃ A₄ :=
  Eq.trans (by kept) (W2_v5 m ρ c)
theorem W3_v1 : W3 (F := Ideal) m ρ c (Proc.devRef .tc main_v1) = sources A₁ :=
  Eq.trans (by kept) (W2_v1 m ρ c)
theorem W3_v3 : W3 (F := Ideal) m ρ c (Proc.devRef .tc main_v3) = targets A₁ :=
  Eq.trans (by kept) (W2_v3 m ρ c)

theorem W3_v16 : W3 (F := Ideal) m ρ c (Proc.devRef .tc main_v16) = biasRow A₆ := by
  show StableHlo.after hostOps1 (W2 m ρ c) (Proc.devRef .tc main_v16) = _
  after_results
  rw [W2_arg6 m ρ c]
  exact Cert.RowOps.rowCast_eq_bcast (B := 64) shapeCasts_S64_S1x64 Cert.ReferenceIdeal.Gen.bcast_S64_S1x64_1 A₆

theorem W3_v17 : W3 (F := Ideal) m ρ c (Proc.devRef .tc main_v17) = biasRow A₈ := by
  show StableHlo.after hostOps1 (W2 m ρ c) (Proc.devRef .tc main_v17) = _
  after_results
  rw [W2_arg8 m ρ c]
  exact Cert.RowOps.rowCast_eq_bcast (B := 64) shapeCasts_S64_S1x64 Cert.ReferenceIdeal.Gen.bcast_S64_S1x64_1 A₈

theorem W3_v15 : W3 (F := Ideal) m ρ c (Proc.devRef .tc main_v15) = aggregate (h0 A₀ A₃ A₄) A₁ := by
  show StableHlo.after hostOps1 (W2 m ρ c) (Proc.devRef .tc main_v15) = _
  after_results
  rw [W2_v1 m ρ c, W2_v3 m ρ c, W2_v5 m ρ c, gather_eq, scatter_nodes_eq]
  rfl

/-! ## Region 1: message-passing layer 0 -/

theorem W4_v18 : W4 (F := Ideal) m ρ c (Proc.devRef .tc main_v18) = layer (h0 A₀ A₃ A₄) A₁ A₅ A₆ A₇ A₈ :=
  (W4_arr m ρ c 6).trans ((Cert.Gin.Region.region1 (V3 m ρ) c).trans (by
    show mlp (W3 m ρ c (Proc.devRef .tc main_v5)) (W3 m ρ c (Proc.devRef .tc main_v15))
        (W3 m ρ c (Proc.devRef .tc main_arg5)) (W3 m ρ c (Proc.devRef .tc main_v16))
        (W3 m ρ c (Proc.devRef .tc main_arg7)) (W3 m ρ c (Proc.devRef .tc main_v17)) = _
    rw [W3_v5 m ρ c, W3_v15 m ρ c, W3_arg5 m ρ c, W3_v16 m ρ c, W3_arg7 m ρ c, W3_v17 m ρ c]
    rfl))

theorem W4_v1 : W4 (F := Ideal) m ρ c (Proc.devRef .tc main_v1) = sources A₁ :=
  (W4_of_ne m ρ c main_v1 (by decide)).trans (W3_v1 m ρ c)
theorem W4_v3 : W4 (F := Ideal) m ρ c (Proc.devRef .tc main_v3) = targets A₁ :=
  (W4_of_ne m ρ c main_v3 (by decide)).trans (W3_v3 m ρ c)

/-! ## The third stretch: the neighbour sum of layer 0's output, and layer 1's bias rows -/

theorem W4_arg10 : W4 (F := Ideal) m ρ c (Proc.devRef .tc main_arg10) = A₁₀ :=
  keep4 m ρ c main_arg10 (by unwritten) (by decide) (by unwritten) (by decide)
theorem W4_arg12 : W4 (F := Ideal) m ρ c (Proc.devRef .tc main_arg12) = A₁₂ :=
  keep4 m ρ c main_arg12 (by unwritten) (by decide) (by unwritten) (by decide)
theorem W5_arg9 : W5 (F := Ideal) m ρ c (Proc.devRef .tc main_arg9) = A₉ :=
  keep5 m ρ c main_arg9 (by unwritten) (by decide) (by unwritten) (by decide) (by unwritten)
theorem W5_arg11 : W5 (F := Ideal) m ρ c (Proc.devRef .tc main_arg11) = A₁₁ :=
  keep5 m ρ c main_arg11 (by unwritten) (by decide) (by unwritten) (by decide) (by unwritten)

theorem W5_v18 : W5 (F := Ideal) m ρ c (Proc.devRef .tc main_v18) = layer (h0 A₀ A₃ A₄) A₁ A₅ A₆ A₇ A₈ :=
  Eq.trans (by kept) (W4_v18 m ρ c)

theorem W5_v29 : W5 (F := Ideal) m ρ c (Proc.devRef .tc main_v29) = biasRow A₁₀ := by
  show StableHlo.after hostOps2 (W4 m ρ c) (Proc.devRef .tc main_v29) = _
  after_results
  rw [W4_arg10 m ρ c]
  exact Cert.RowOps.rowCast_eq_bcast (B := 64) shapeCasts_S64_S1x64 Cert.ReferenceIdeal.Gen.bcast_S64_S1x64_1 A₁₀

theorem W5_v30 : W5 (F := Ideal) m ρ c (Proc.devRef .tc main_v30) = biasRow A₁₂ := by
  show StableHlo.after hostOps2 (W4 m ρ c) (Proc.devRef .tc main_v30) = _
  after_results
  rw [W4_arg12 m ρ c]
  exact Cert.RowOps.rowCast_eq_bcast (B := 64) shapeCasts_S64_S1x64 Cert.ReferenceIdeal.Gen.bcast_S64_S1x64_1 A₁₂

theorem W5_v28 : W5 (F := Ideal) m ρ c (Proc.devRef .tc main_v28)
    = aggregate (layer (h0 A₀ A₃ A₄) A₁ A₅ A₆ A₇ A₈) A₁ := by
  show StableHlo.after hostOps2 (W4 m ρ c) (Proc.devRef .tc main_v28) = _
  after_results
  rw [W4_v1 m ρ c, W4_v3 m ρ c, W4_v18 m ρ c, gather_eq, scatter_nodes_eq]
  rfl

/-! ## Region 2: message-passing layer 1 -/

theorem W6_v31 : W6 (F := Ideal) m ρ c (Proc.devRef .tc main_v31)
    = layer (layer (h0 A₀ A₃ A₄) A₁ A₅ A₆ A₇ A₈) A₁ A₉ A₁₀ A₁₁ A₁₂ :=
  (W6_arr m ρ c 6).trans ((Cert.Gin.Region.region2 (V5 m ρ) c).trans (by
    show mlp (W5 m ρ c (Proc.devRef .tc main_v18)) (W5 m ρ c (Proc.devRef .tc main_v28))
        (W5 m ρ c (Proc.devRef .tc main_arg9)) (W5 m ρ c (Proc.devRef .tc main_v29))
        (W5 m ρ c (Proc.devRef .tc main_arg11)) (W5 m ρ c (Proc.devRef .tc main_v30)) = _
    rw [W5_v18 m ρ c, W5_v28 m ρ c, W5_arg9 m ρ c, W5_v29 m ρ c, W5_arg11 m ρ c, W5_v30 m ρ c]
    rfl))

theorem W6_arg2 : W6 (F := Ideal) m ρ c (Proc.devRef .tc main_arg2) = A₂ :=
  keep6 m ρ c main_arg2 (by unwritten) (by decide) (by unwritten) (by decide) (by unwritten) (by decide)

/-! ## The last stretch: the mean pool -/

theorem W7_v43 : W7 (F := Ideal) m ρ c (Proc.devRef .tc main_v43)
    = pool (layer (layer (h0 A₀ A₃ A₄) A₁ A₅ A₆ A₇ A₈) A₁ A₉ A₁₀ A₁₁ A₁₂) A₂ := by
  show StableHlo.after hostOps3 (W6 m ρ c) (Proc.devRef .tc main_v43) = _
  after_results
  rw [W6_v31 m ρ c, W6_arg2 m ρ c, scatter_graphs_eq, scatter_counts_eq]
  rfl

end Walk

/-- The fold's last contents at the result buffer are the encoder's function of the arguments' launch contents. -/
theorem fold (c : Dev nD) :
    W7 (F := Ideal) m ρ c (Proc.devRef .tc main_v43)
      = Cert.Gin.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  W7_v43 m ρ c

end Cert.Gin.Fold

end
-- ==== Proof.RefSpec.lean ====
/-
  The reference's result term is the encoder's function of the argument arrays: its dot_general, row broadcast, sum and
  maximum with zero are the dense layer, twice per message-passing layer on the sum of the node features and the
  neighbour sums; its gathers and scatter-adds are the neighbour sum and the pooling as written.
-/
import proofs.«167774_j68470368632924_1_alg».proof.Proof.Gen.ReferenceIdeal.Read
import proofs.«167774_j68470368632924_1_alg».proof.Proof.Spec

noncomputable section

namespace Cert.Gin.RefSpec

open Cert.ReferenceIdeal Cert.ReferenceIdeal.Gen Idealize.ShloMosaic Idealize.ShloMosaic.TcCoe Idealize.SL.Sem
open Cert.RowOps Cert.Gin
open Cert.ReferenceIdeal.Read

/-! ## A dense layer as the reference writes it

  The whole-array product, the bias row broadcast over the 50000 rows and added, and the maximum with a zero array:
  entry (r, c) is max (∑ k, X(r, k) · W(k, c) + b(0, c)) 0, which is `dense X W b`. Once for the input projection
  (128 input features) and once for the hidden layers (64). -/

/-- The reference's input projection layer is `dense`. -/
theorem hostDense_proj (X : FVec Ideal S50000x128 .f32) (W : FVec Ideal S128x64 .f32) (b : FVec Ideal S1x64 .f32) :
    maximumf (F := Ideal) (s := S50000x64) (φ := .f32)
        (addf (Host.dotGeneral (F := Ideal) dot_S50000x128_S128x64_S50000x64_1_0_0_1_n_n none X W) (broadcastInDim S50000x64 ![0, 1] bcast_S1x64_S50000x64_0_1 b))
        (broadcastInDim S50000x64 ![] bcast_S_S50000x64 (constant (F := Ideal) S_ .f32 0x00000000#32))
      = dense (A := 50000) (K := 128) (B := 64) X W b := by
  have e : Host.dotGeneral (F := Ideal) dot_S50000x128_S128x64_S50000x64_1_0_0_1_n_n none X W = matProd (A := 50000) (K := 128) (B := 64) X W := by
    simp only [Host.dotGeneral]
    exact dotGeneral_eq_matProd dot_S50000x128_S128x64_S50000x64_1_0_0_1_n_n rfl rfl lhs_main_v4_0 lhs_main_v4_1 rhs_main_v4_0 rhs_main_v4_1 none _ X W
  rw [e, addf_bcastRow, maximumf_bcastZero]
  rfl

/-- The reference's hidden layer is `dense`. -/
theorem hostDense_hidden (X : FVec Ideal S50000x64 .f32) (W : FVec Ideal S64x64 .f32) (b : FVec Ideal S1x64 .f32) :
    maximumf (F := Ideal) (s := S50000x64) (φ := .f32)
        (addf (Host.dotGeneral (F := Ideal) dot_S50000x64_S64x64_S50000x64_1_0_0_1_n_n none X W) (broadcastInDim S50000x64 ![0, 1] bcast_S1x64_S50000x64_0_1 b))
        (broadcastInDim S50000x64 ![] bcast_S_S50000x64 (constant (F := Ideal) S_ .f32 0x00000000#32))
      = dense (A := 50000) (K := 64) (B := 64) X W b := by
  have e : Host.dotGeneral (F := Ideal) dot_S50000x64_S64x64_S50000x64_1_0_0_1_n_n none X W = matProd (A := 50000) (K := 64) (B := 64) X W := by
    simp only [Host.dotGeneral]
    exact dotGeneral_eq_matProd dot_S50000x64_S64x64_S50000x64_1_0_0_1_n_n rfl rfl lhs_main_v20_0 lhs_main_v20_1 rhs_main_v20_0 rhs_main_v20_1 none _ X W
  rw [e, addf_bcastRow, maximumf_bcastZero]
  rfl

/-- The combine step and the two hidden layers as the reference writes them: the entrywise sum of the node features h
    and the neighbour sums g through two dense layers is `mlp h g`. -/
theorem hostLayer (h g : FVec Ideal S50000x64 .f32) (W1 : FVec Ideal S64x64 .f32) (b1 : FVec Ideal S1x64 .f32) (W2 : FVec Ideal S64x64 .f32) (b2 : FVec Ideal S1x64 .f32) :
    maximumf (F := Ideal) (s := S50000x64) (φ := .f32)
        (addf (Host.dotGeneral (F := Ideal) dot_S50000x64_S64x64_S50000x64_1_0_0_1_n_n none
            (maximumf (F := Ideal) (s := S50000x64) (φ := .f32)
              (addf (Host.dotGeneral (F := Ideal) dot_S50000x64_S64x64_S50000x64_1_0_0_1_n_n none (addf h g) W1) (broadcastInDim S50000x64 ![0, 1] bcast_S1x64_S50000x64_0_1 b1))
              (broadcastInDim S50000x64 ![] bcast_S_S50000x64 (constant (F := Ideal) S_ .f32 0x00000000#32)))
            W2) (broadcastInDim S50000x64 ![0, 1] bcast_S1x64_S50000x64_0_1 b2))
        (broadcastInDim S50000x64 ![] bcast_S_S50000x64 (constant (F := Ideal) S_ .f32 0x00000000#32))
      = mlp (A := 50000) (K := 64) h g W1 b1 W2 b2 := by
  rw [hostDense_hidden (addf h g) W1 b1, hostDense_hidden _ W2 b2]
  rfl

/-! ## The stages of the reference, in program order -/

/-- The input projection. -/
theorem stage_h0 (x0 : (⟨S50000x128, .f32⟩ : BufTy).Contents (Elt Ideal)) (x3 : (⟨S128x64, .f32⟩ : BufTy).Contents (Elt Ideal)) (x4 : (⟨S64, .f32⟩ : BufTy).Contents (Elt Ideal)) :
    val_main_v8 (F := Ideal) x0 x3 x4 = h0 x0 x3 x4 := by
  unfold val_main_v8 val_main_v7 val_main_v6 val_main_v5 val_main_v4 val_main_call0_v0 val_main_call0_cst
  exact hostDense_proj x0 x3 (biasRow x4)

/-- The first neighbour sum: the reference's gather and scatter-add are those of `aggregate`, term for term. -/
theorem stage_agg0 (x0 : (⟨S50000x128, .f32⟩ : BufTy).Contents (Elt Ideal)) (x1 : (⟨S2x800000, .i32⟩ : BufTy).Contents (Elt Ideal)) (x3 : (⟨S128x64, .f32⟩ : BufTy).Contents (Elt Ideal)) (x4 : (⟨S64, .f32⟩ : BufTy).Contents (Elt Ideal)) :
    val_main_v18 (F := Ideal) x0 x1 x3 x4 = aggregate (val_main_v8 (F := Ideal) x0 x3 x4) x1 := by
  unfold val_main_v18 val_main_v17 val_main_v16 val_main_v15 val_main_v14 val_main_v13 val_main_v12 val_main_v11 val_main_v10 val_main_v9 val_main_v3 val_main_v2 val_main_v1 val_main_v0 val_main_cst val_main_c val_main_c_0
  generalize val_main_v8 (F := Ideal) x0 x3 x4 = h
  rfl

/-- The first message-passing layer. -/
theorem stage_layer0 (x0 : (⟨S50000x128, .f32⟩ : BufTy).Contents (Elt Ideal)) (x1 : (⟨S2x800000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v29 (F := Ideal) x0 x1 x3 x4 x5 x6 x7 x8 = layer (val_main_v8 (F := Ideal) x0 x3 x4) x1 x5 x6 x7 x8 := by
  unfold val_main_v29 val_main_v28 val_main_v27 val_main_v26 val_main_v25 val_main_v24 val_main_v23 val_main_v22 val_main_v21 val_main_v20 val_main_v19 val_main_call2_v0 val_main_call2_cst val_main_call1_v0 val_main_call1_cst
  rw [stage_agg0]
  generalize val_main_v8 (F := Ideal) x0 x3 x4 = h
  exact hostLayer h (aggregate h x1) x5 (biasRow x6) x7 (biasRow x8)

/-- The second neighbour sum. -/
theorem stage_agg1 (x0 : (⟨S50000x128, .f32⟩ : BufTy).Contents (Elt Ideal)) (x1 : (⟨S2x800000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v39 (F := Ideal) x0 x1 x3 x4 x5 x6 x7 x8 = aggregate (val_main_v29 (F := Ideal) x0 x1 x3 x4 x5 x6 x7 x8) x1 := by
  unfold val_main_v39 val_main_v38 val_main_v37 val_main_v36 val_main_v35 val_main_v34 val_main_v33 val_main_v32 val_main_v31 val_main_v30 val_main_v3 val_main_v2 val_main_v1 val_main_v0 val_main_cst_3 val_main_c_1 val_main_c_2
  generalize val_main_v29 (F := Ideal) x0 x1 x3 x4 x5 x6 x7 x8 = h
  rfl

/-- The second message-passing layer. -/
theorem stage_layer1 (x0 : (⟨S50000x128, .f32⟩ : BufTy).Contents (Elt Ideal)) (x1 : (⟨S2x800000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) :
    val_main_v50 (F := Ideal) x0 x1 x3 x4 x5 x6 x7 x8 x9 x10 x11 x12 = layer (val_main_v29 (F := Ideal) x0 x1 x3 x4 x5 x6 x7 x8) x1 x9 x10 x11 x12 := by
  unfold val_main_v50 val_main_v49 val_main_v48 val_main_v47 val_main_v46 val_main_v45 val_main_v44 val_main_v43 val_main_v42 val_main_v41 val_main_v40 val_main_call4_v0 val_main_call4_cst val_main_call3_v0 val_main_call3_cst
  rw [stage_agg1]
  generalize val_main_v29 (F := Ideal) x0 x1 x3 x4 x5 x6 x7 x8 = h
  exact hostLayer h (aggregate h x1) x9 (biasRow x10) x11 (biasRow x12)

/-- The mean pooling: the reference's two scatter-adds, the maximum with one and the division are those of `pool`. -/
theorem stage_pool (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) :
    val_main_v62 (F := Ideal) x0 x1 x2 x3 x4 x5 x6 x7 x8 x9 x10 x11 x12 = pool (val_main_v50 (F := Ideal) x0 x1 x3 x4 x5 x6 x7 x8 x9 x10 x11 x12) x2 := by
  unfold val_main_v62 val_main_v61 val_main_v60 val_main_v59 val_main_v58 val_main_v57 val_main_v56 val_main_v55 val_main_v54 val_main_v53 val_main_v52 val_main_v51 val_main_cst_7 val_main_cst_6 val_main_cst_5 val_main_cst_4
  generalize val_main_v50 (F := Ideal) x0 x1 x3 x4 x5 x6 x7 x8 x9 x10 x11 x12 = h
  rfl

/-- The reference's last stage is the encoder's function of the thirteen argument arrays. -/
theorem stage_out (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) :
    val_main_v62 (F := Ideal) x0 x1 x2 x3 x4 x5 x6 x7 x8 x9 x10 x11 x12 = out x0 x1 x2 x3 x4 x5 x6 x7 x8 x9 x10 x11 x12 := by
  rw [stage_pool, stage_layer1, stage_layer0, stage_h0]
  rfl

/-- The reference run's result term at Ideal is the encoder's function of the launch contents of the arguments. -/
theorem ref_out (m : (ℓ : Loc nD τ sig) → Buf (Elt Ideal) ℓ) (c : Dev nD) :
    Cert.ReferenceIdeal.Value.res_main_v62 (F := Ideal) m c
      = Cert.Gin.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (val_main_v62_eq (F := Ideal) m c).trans (stage_out _ _ _ _ _ _ _ _ _ _ _ _ _)

end Cert.Gin.RefSpec

end
-- ==== Proof.lean ====
/-
  The certificate of a graph encoder against its plain reference, at the ideal instance (floats are extended reals,
  every operation exact, a change of float format the identity).

  Both programs compute, from the node features x [50000, 128], the edge array e [2, 800000], the graph numbers
  batch [50000] and five weight matrices with their biases,

      h0  = max (x · Wp + bp) 0
      h1  = mlp h0 (aggregate h0 e)        mlp h g = max (max ((h + g) · W1 + b1) 0 · W2 + b2) 0
      h2  = mlp h1 (aggregate h1 e)
      out = pool h2 batch                  [256, 64]

  where aggregate is the host's gather of rows at the edges' sources followed by its scatter-add at the edges' targets,
  and pool the host's scatter-add of rows at the graph numbers divided by the graphs' node counts. The reference takes
  each product as one whole dot_general. The kernel program runs h0 and the two mlp's as three regions, each over ten
  grid points, point t taking rows 5000·t … 5000·t + 4999 with the whole weights, the matrix unit's product into a zero
  accumulator; between the regions it applies the very host operations of the reference. A dense layer computes a row of
  its result from that row of its operand alone, so the ten bands of rows a region writes are the rows of the layer of
  the whole array (Region0, Region1, Region2 over Body and Layers), and the fold of buffer contents through the
  program's seven segments, read at the result, is the function above of the launch contents (Fold). The reference's
  result term is the same function (RefSpec). No law used needs a finite operand: the two sides are the same sums and
  maxima of the same entries, so the precondition is never opened.

  The frames of the two kernel programs are the generated ones; the reference's frame is its generated run with the
  result dropped; the ideal pass rewrote nothing, so there is nothing to preserve.
-/
import proofs.«167774_j68470368632924_1_alg».proof.Defs
import proofs.«167774_j68470368632924_1_alg».proof.Proof.Gen.Kernel
import proofs.«167774_j68470368632924_1_alg».proof.Proof.Gen.Kernel.Skeleton
import proofs.«167774_j68470368632924_1_alg».proof.Proof.Gen.Kernel.Launch
import proofs.«167774_j68470368632924_1_alg».proof.Proof.Gen.Kernel.Points
import proofs.«167774_j68470368632924_1_alg».proof.Proof.Gen.Kernel.Frame
import proofs.«167774_j68470368632924_1_alg».proof.Proof.Gen.KernelIdeal
import proofs.«167774_j68470368632924_1_alg».proof.Proof.Gen.KernelIdeal.Skeleton
import proofs.«167774_j68470368632924_1_alg».proof.Proof.Gen.KernelIdeal.Launch
import proofs.«167774_j68470368632924_1_alg».proof.Proof.Gen.KernelIdeal.Points
import proofs.«167774_j68470368632924_1_alg».proof.Proof.Gen.KernelIdeal.Frame
import proofs.«167774_j68470368632924_1_alg».proof.Proof.Gen.ReferenceIdeal
import proofs.«167774_j68470368632924_1_alg».proof.Proof.Gen.Pre_finite_inputs
import proofs.«167774_j68470368632924_1_alg».proof.Proof.Gen.ReferenceIdeal.Run
import proofs.«167774_j68470368632924_1_alg».proof.Proof.Gen.ReferenceIdeal.Read
import proofs.«167774_j68470368632924_1_alg».proof.Proof.KernelRun
import proofs.«167774_j68470368632924_1_alg».proof.Proof.Fold
import proofs.«167774_j68470368632924_1_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a host program: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The idealized kernel's run with its result at the encoder's function of the arguments' launch contents: the run
    with the result at the fold's last contents, and the fold read there. -/
theorem kernel_value (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
      r.2.mem ((c.tc : Thread Cert.KernelIdeal.nD Cert.KernelIdeal.τ).loc Cert.KernelIdeal.main_v43)
        = Cert.Gin.out
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)) :=
  (θ_run Cert.KernelIdeal.defs _ _).mono (fun _ h c => ⟨(h c).1.trans (Cert.Gin.Fold.fold m ρ c), (h c).2⟩)
    (Cert.Gin.KernelRun.run (F := Ideal) m ρ)

/-- From memories agreeing on the arguments both programs end with the encoder's function of those arguments in
    their result buffers. -/
theorem algebraic : Cert.algebraic_KernelIdeal_ReferenceIdeal := by
  intro m ρ m' ρ' _ hagree
  refine ⟨_, kernel_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12⟩ := hagree c
  rw [Cert.Gin.RefSpec.ref_out m' c, e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
